-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩

abbrev nBuf : Space → Nat
  | .hbm => 126
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x1, .f32⟩
  | .hbm, ⟨99, _⟩ => ⟨S1700000x128, .f32⟩
  | .hbm, ⟨100, _⟩ => ⟨S1700000x128, .f32⟩
  | .hbm, ⟨101, _⟩ => ⟨S_, .f32⟩
  | .hbm, ⟨102, _⟩ => ⟨S100000x128, .f32⟩
  | .hbm, ⟨103, _⟩ => ⟨S1700000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x64, .f32⟩
  | .hbm, ⟨108, _⟩ => ⟨S_, .i32⟩
  | .hbm, ⟨109, _⟩ => ⟨S1700000, .i32⟩
  | .hbm, ⟨110, _⟩ => ⟨S1700000, .i1⟩
  | .hbm, ⟨111, _⟩ => ⟨S_, .i32⟩
  | .hbm, ⟨112, _⟩ => ⟨S1700000, .i32⟩
  | .hbm, ⟨113, _⟩ => ⟨S1700000, .i32⟩
  | .hbm, ⟨114, _⟩ => ⟨S1700000, .i32⟩
  | .hbm, ⟨115, _⟩ => ⟨S1700000x1, .i32⟩
  | .hbm, ⟨116, _⟩ => ⟨S1700000x64, .f32⟩
  | .hbm, ⟨117, _⟩ => ⟨S1700000x1, .f32⟩
  | .hbm, ⟨118, _⟩ => ⟨S1700000x64, .f32⟩
  | .hbm, ⟨119, _⟩ => ⟨S1700000x64, .f32⟩
  | .hbm, ⟨120, _⟩ => ⟨S_, .f32⟩
  | .hbm, ⟨121, _⟩ => ⟨S100000x64, .f32⟩
  | .hbm, ⟨122, _⟩ => ⟨S1700000x1, .i32⟩
  | .hbm, ⟨123, _⟩ => ⟨S100000x64, .f32⟩
  | .hbm, ⟨124, _⟩ => ⟨S1x64, .f32⟩
  | .hbm, ⟨125, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S1x64, .f32⟩
  | .local _ .vmem, ⟨38, _⟩ => ⟨S2000x64, .f32⟩
  | .local _ .vmem, ⟨39, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S100000x64.size a
  hwx6_2 : ∀ i : grid6.Coords, EltTy.bits .f32 = 32 ∨ (Rect.block (s := S100000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S100000x64.size a
  hwx7_2 : ∀ i : grid7.Coords, EltTy.bits .f32 = 32 ∨ (Rect.block (s := S100000x64) S2000x64.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v91) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S2000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S1700000x1, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x128, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x128, .f32⟩
  | 106 => ⟨S1700000x1, .f32⟩
  | 107 => ⟨S1700000x128, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x64, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x64, .f32⟩
  | 1 => ⟨S1700000x1, .f32⟩
  | 2 => ⟨S1700000x64, .f32⟩
  | 3 => ⟨S1700000x64, .f32⟩
  | 4 => ⟨S_, .f32⟩
  | 5 => ⟨S100000x64, .f32⟩
  | 6 => ⟨S1700000x1, .i32⟩
  | 7 => ⟨S100000x64, .f32⟩
  | 8 => ⟨S1x64, .f32⟩
  | 9 => ⟨S100000x64, .f32⟩
  | 10 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The function both programs compute, written once over whole arrays: a stack of four graph-convolution layers.

  From the edge list `e : [2, E]` (E = 1 600 000) over N = 100 000 nodes: the sources and the destinations, each with
  the N self-loops appended (`srcIdx`, `dstIdx`, length E + N = 1 700 000); the in-degree of every node counted
  with its self-loop (`degree`, a scatter-add of ones); its inverse square root where the degree is positive and
  zero elsewhere (`degInvSqrt`); and the weight of an edge, the product of that quantity at its two ends
  (`edgeNorm`).  One layer sends node features `h : [N, f]` to
      bias + Σ_{edges (s → d)} norm(s, d) · (h · W)[s]        at every node d,
  i.e. a dense product (`lin…`), a gather of the product's rows at the sources scaled by the edge weights and
  scatter-added into the destinations (`aggregate…`), the bias broadcast over the rows, and — except in the last
  layer — the maximum with zero (`biasRelu128`, `bias64`).  `gcn` is the four layers in sequence, widths
  128 → 128 → 128 → 128 → 64.

  The spelling is the reference program's own, operation for operation, so that its composed result term unfolds
  to `gcn` of its arguments; the kernel's program computes the same aggregation on the host and replaces the dense
  product and the bias step by tiled kernels, which are shown elsewhere to produce these same whole-array values.
-/
import proofs.«175226_j66958540144840_1_alg».proof.Proof.Gen.ReferenceIdeal

noncomputable section

namespace Cert.ReferenceIdeal.Spec

open Cert.ReferenceIdeal Cert.ReferenceIdeal.Gen Idealize.ShloMosaic Idealize.ShloMosaic.TcCoe

variable {F : FTy → Type} [FloatOps F]

/-- The sources of the E edges followed by the N self-loops `0, 1, …, N - 1`. -/
def srcIdx (e : IVec S2x1600000 32) : IVec S1700000 32 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The destinations of the E edges followed by the N self-loops. -/
def dstIdx (e : IVec S2x1600000 32) : IVec S1700000 32 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- A vector of node numbers as the column of start indices a gather takes: a negative number counts from the
    end (`x + N`), as jnp's indexing does. -/
def gatherCol (x : IVec S1700000 32) : IVec S1700000x1 32 :=
  (broadcastInDim S1700000x1 ![0] bcast_S1700000_S1700000x1_0 (select (cmpi .slt x (broadcastInDim S1700000 ![] bcast_S_S1700000 (constantI S_ 32 0#32))) (addi x (broadcastInDim S1700000 ![] bcast_S_S1700000 (constantI S_ 32 100000#32))) x))

/-- The in-degree of every node, self-loop included: ones scatter-added at the destinations. -/
def degree (e : IVec S2x1600000 32) : FVec F S100000 .f32 :=
  (Host.scatterAdd scatter_S100000_S1700000x1_S1700000_n_0_0_1 (broadcastInDim S100000 ![] bcast_S_S100000 (constant S_ .f32 0x00000000#32)) (broadcastInDim S1700000x1 ![0] bcast_S1700000_S1700000x1_0 (dstIdx e)) (broadcastInDim S1700000 ![] bcast_S_S1700000 (constant S_ .f32 0x3F800000#32)))

/-- `deg^(-1/2)` where the degree is positive, zero elsewhere. -/
def degInvSqrt (e : IVec S2x1600000 32) : FVec F S100000 .f32 :=
  (select (cmpf (F := F) .ogt (degree e) (broadcastInDim S100000 ![] bcast_S_S100000 (constant S_ .f32 0x00000000#32))) (Host.rsqrt (degree e)) (broadcastInDim S100000 ![] bcast_S_S100000 (id (constant S_ .f32 0x00000000#32))))

/-- The weight of each of the E + N edges: `deg^(-1/2)` at its source times `deg^(-1/2)` at its destination. -/
def edgeNorm (e : IVec S2x1600000 32) : FVec F S1700000 .f32 :=
  (mulf (Host.gather gather_S100000_S1700000x1_S1700000_n_0_n_n_0_1_1 (degInvSqrt e) (gatherCol (srcIdx e))) (Host.gather gather_S100000_S1700000x1_S1700000_n_0_n_n_0_1_1 (degInvSqrt e) (gatherCol (dstIdx e))))

/-- The dense product `x · W`, 128 features to 128. -/
def lin128 (x : FVec F S100000x128 .f32) (w : FVec F S128x128 .f32) : FVec F S100000x128 .f32 :=
  (Host.dotGeneral dot_S100000x128_S128x128_S100000x128_1_0_0_1_n_n none x w)

/-- The dense product `x · W`, 128 features to 64. -/
def lin64 (x : FVec F S100000x128 .f32) (w : FVec F S128x64 .f32) : FVec F S100000x64 .f32 :=
  (Host.dotGeneral dot_S100000x128_S128x64_S100000x64_1_0_0_1_n_n none x w)

/-- Message passing on 128 features: row `s` of `h` for every edge `s → d`, scaled by the edge's weight, summed
    into row `d`. -/
def aggregate128 (e : IVec S2x1600000 32) (h : FVec F S100000x128 .f32) : FVec F S100000x128 .f32 :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstIdx e)) (mulf (Host.gather gather_S100000x128_S1700000x1_S1700000x128_1_0_n_n_0_1_1128 h (gatherCol (srcIdx e))) (broadcastInDim S1700000x128 ![0, 1] bcast_S1700000x1_S1700000x128_0_1 (broadcastInDim S1700000x1 ![0] bcast_S1700000_S1700000x1_0 (edgeNorm e)))))

/-- Message passing on 64 features. -/
def aggregate64 (e : IVec S2x1600000 32) (h : FVec F S100000x64 .f32) : FVec F S100000x64 .f32 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dstIdx e)) (mulf (Host.gather gather_S100000x64_S1700000x1_S1700000x64_1_0_n_n_0_1_164 h (gatherCol (srcIdx e))) (broadcastInDim S1700000x64 ![0, 1] bcast_S1700000x1_S1700000x64_0_1 (broadcastInDim S1700000x1 ![0] bcast_S1700000_S1700000x1_0 (edgeNorm e)))))

/-- The bias added to every row, then the maximum with zero. -/
def biasRelu128 (a : FVec F S100000x128 .f32) (b : FVec F S128 .f32) : FVec F S100000x128 .f32 :=
  (maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32)))

/-- The bias added to every row (the last layer has no maximum). -/
def bias64 (a : FVec F S100000x64 .f32) (b : FVec F S64 .f32) : FVec F S100000x64 .f32 :=
  addf a (broadcastInDim S100000x64 ![0, 1] bcast_S1x64_S100000x64_0_1 (broadcastInDim S1x64 ![1] bcast_S64_S1x64_1 b))

/-- The four layers in sequence. -/
def gcn (x : FVec F S100000x128 .f32) (e : IVec S2x1600000 32)
    (w1 : FVec F S128x128 .f32) (b1 : FVec F S128 .f32) (wm1 : FVec F S128x128 .f32) (bm1 : FVec F S128 .f32)
    (wm2 : FVec F S128x128 .f32) (bm2 : FVec F S128 .f32) (w2 : FVec F S128x64 .f32) (b2 : FVec F S64 .f32) :
    FVec F S100000x64 .f32 :=
  bias64 (aggregate64 e (lin64 (biasRelu128 (aggregate128 e (lin128 (biasRelu128 (aggregate128 e (lin128
    (biasRelu128 (aggregate128 e (lin128 x w1)) b1) wm1)) bm1) wm2)) bm2) w2)) b2

end Cert.ReferenceIdeal.Spec

end
-- ==== Proof.RefSpec.lean ====
/-
  The reference program's result is `gcn` of its ten arguments: its composed result term is, operation for
  operation, the four layers of Spec.lean — the edge list's sources and destinations with the self-loops, the
  degrees, the edge weights, and per layer the dense product, the weighted gather–scatter-add and the bias (with the
  maximum with zero in the first three layers).  Nothing is computed here: the two sides are one term once the
  layer definitions are unfolded.
-/
import proofs.«175226_j66958540144840_1_alg».proof.Proof.RefRunPatched
import proofs.«175226_j66958540144840_1_alg».proof.Proof.Spec

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The reference's result buffer ends at the four-layer function of the arguments' launch contents. -/
theorem res_eq_gcn (m : (ℓ : Loc nD τ sig) → Buf (Elt F) ℓ) (c : Dev nD) :
    ValueP.res_main_v100 m c
      = Spec.gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold ValueP.res_main_v100 Spec.gcn Spec.bias64 Spec.aggregate64 Spec.lin64 Spec.biasRelu128 Spec.aggregate128
    Spec.lin128 Spec.edgeNorm Spec.degInvSqrt Spec.degree Spec.gatherCol Spec.srcIdx Spec.dstIdx
  rfl

end Cert.ReferenceIdeal.RefValue

end
-- ==== Proof.KernelRun.lean ====
/-
  The kernel program's run with its result named.  The program is fifteen segments in a row — host stretches and the
  eight tiled kernels — and the contents of the TensorCore's buffers at each boundary are a fold from the launch
  memory: after a host stretch, the stretch's operations applied to the contents before it; after a kernel, its
  arrays at what the fifty write-backs leave and every other buffer as before (the generated boundary contents
  `W0 … W15`).  Every weakly fair execution terminates, nothing faulting, with every unscoped buffer at the last
  boundary's contents: so the result buffer holds `W15` at its reference, and each argument what it held at launch.
  This is the launch theorem over the generated segments with the result's buffer kept in the postcondition; what
  `W15` holds there as a function of the arguments is computed boundary by boundary elsewhere.
-/
import proofs.«175226_j66958540144840_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program ends with the result buffer at the last boundary's contents and
    the ten arguments as launched. -/
theorem run : θ_run defs (onTc (τ := τ) (main (F := F))) ⟨m, fun _ => 0, ρ⟩ (fun r => ∀ c : Dev nD,
      r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v93 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.ValueRun

end
-- ==== Proof.Keep.lean ====
/-
  Buffers that pass a boundary unchanged.  The kernel program's buffer contents at its sixteen boundaries are a fold:
  a host stretch changes only the buffers its operations write, and a tiled kernel only its output array (its input
  arrays end as entered, every other buffer as entered).  So an argument still holds its launch contents at the
  boundary where it is first read, and the three edge quantities computed once before the first kernel — the source
  indices, the destination indices and the edge weights — are the same at the start of each later host stretch.
  Each statement is a walk back through the boundaries, one step per stretch or kernel; the inequalities of buffer
  names are decided.
-/
import proofs.«175226_j66958540144840_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A host stretch leaves a buffer alone when none of its operations writes it: the operations' result buffers are
    listed and each is a different name. -/
local macro "host_keeps" : tactic => `(tactic|
  exact StableHlo.after_of_forall_not_mem _ _ (List.forall_iff_forall_mem.mp (by
    simp only [hostOps0, hostOps0_1, hostOps0_2, hostOps1, hostOps3, hostOps5, hostOps7, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-- The argument `main_arg0` still holds its launch contents at boundary 3: nothing before it writes that buffer. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps
    _ = W1 m ρ c (Proc.devRef .tc main_arg0) := by host_keeps
    _ = W0 m ρ c (Proc.devRef .tc main_arg0) := by host_keeps
    _ = m ((c : Thread nD τ).loc main_arg0) := rfl

/-- The argument `main_arg2` still holds its launch contents at boundary 3: nothing before it writes that buffer. -/
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps
    _ = W1 m ρ c (Proc.devRef .tc main_arg2) := by host_keeps
    _ = W0 m ρ c (Proc.devRef .tc main_arg2) := by host_keeps
    _ = m ((c : Thread nD τ).loc main_arg2) := rfl

/-- The argument `main_arg3` still holds its launch contents at boundary 4: nothing before it writes that buffer. -/
theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps
    _ = W1 m ρ c (Proc.devRef .tc main_arg3) := by host_keeps
    _ = W0 m ρ c (Proc.devRef .tc main_arg3) := by host_keeps
    _ = m ((c : Thread nD τ).loc main_arg3) := rfl

/-- The argument `main_arg4` still holds its launch contents at boundary 6: nothing before it writes that buffer. -/
theorem arg4_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps
    _ = W3 m ρ c (Proc.devRef .tc main_arg4) := W4_of_ne m ρ c main_arg4 (by decide)
    _ = W2 m ρ c (Proc.devRef .tc main_arg4) := by host_keeps
    _ = W1 m ρ c (Proc.devRef .tc main_arg4) := by host_keeps
    _ = W0 m ρ c (Proc.devRef .tc main_arg4) := by host_keeps
    _ = m ((c : Thread nD τ).loc main_arg4) := rfl

/-- The argument `main_arg5` still holds its launch contents at boundary 7: nothing before it writes that buffer. -/
theorem arg5_at7 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := by host_keeps
    _ = W3 m ρ c (Proc.devRef .tc main_arg5) := W4_of_ne m ρ c main_arg5 (by decide)
    _ = W2 m ρ c (Proc.devRef .tc main_arg5) := by host_keeps
    _ = W1 m ρ c (Proc.devRef .tc main_arg5) := by host_keeps
    _ = W0 m ρ c (Proc.devRef .tc main_arg5) := by host_keeps
    _ = m ((c : Thread nD τ).loc main_arg5) := rfl

/-- The argument `main_arg6` still holds its launch contents at boundary 9: nothing before it writes that buffer. -/
theorem arg6_at9 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := by host_keeps
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keeps
    _ = W3 m ρ c (Proc.devRef .tc main_arg6) := W4_of_ne m ρ c main_arg6 (by decide)
    _ = W2 m ρ c (Proc.devRef .tc main_arg6) := by host_keeps
    _ = W1 m ρ c (Proc.devRef .tc main_arg6) := by host_keeps
    _ = W0 m ρ c (Proc.devRef .tc main_arg6) := by host_keeps
    _ = m ((c : Thread nD τ).loc main_arg6) := rfl

/-- The argument `main_arg7` still holds its launch contents at boundary 10: nothing before it writes that buffer. -/
theorem arg7_at10 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by host_keeps
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by host_keeps
    _ = W3 m ρ c (Proc.devRef .tc main_arg7) := W4_of_ne m ρ c main_arg7 (by decide)
    _ = W2 m ρ c (Proc.devRef .tc main_arg7) := by host_keeps
    _ = W1 m ρ c (Proc.devRef .tc main_arg7) := by host_keeps
    _ = W0 m ρ c (Proc.devRef .tc main_arg7) := by host_keeps
    _ = m ((c : Thread nD τ).loc main_arg7) := rfl

/-- The argument `main_arg8` still holds its launch contents at boundary 12: nothing before it writes that buffer. -/
theorem arg8_at12 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := by host_keeps
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by host_keeps
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by host_keeps
    _ = W3 m ρ c (Proc.devRef .tc main_arg8) := W4_of_ne m ρ c main_arg8 (by decide)
    _ = W2 m ρ c (Proc.devRef .tc main_arg8) := by host_keeps
    _ = W1 m ρ c (Proc.devRef .tc main_arg8) := by host_keeps
    _ = W0 m ρ c (Proc.devRef .tc main_arg8) := by host_keeps
    _ = m ((c : Thread nD τ).loc main_arg8) := rfl

/-- The argument `main_arg9` still holds its launch contents at boundary 13: nothing before it writes that buffer. -/
theorem arg9_at13 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := by host_keeps
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := by host_keeps
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by host_keeps
    _ = W3 m ρ c (Proc.devRef .tc main_arg9) := W4_of_ne m ρ c main_arg9 (by decide)
    _ = W2 m ρ c (Proc.devRef .tc main_arg9) := by host_keeps
    _ = W1 m ρ c (Proc.devRef .tc main_arg9) := by host_keeps
    _ = W0 m ρ c (Proc.devRef .tc main_arg9) := by host_keeps
    _ = m ((c : Thread nD τ).loc main_arg9) := rfl

/-- `main_v3` (computed once before the first kernel) is carried unchanged from boundary 3 to boundary 4. -/
theorem v3_4_3 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- `main_v3` (computed once before the first kernel) is carried unchanged from boundary 4 to boundary 7. -/
theorem v3_7_4 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps

/-- `main_v3` (computed once before the first kernel) is carried unchanged from boundary 7 to boundary 10. -/
theorem v3_10_7 (c : Dev nD) : W10 m ρ c (Proc.devRef .tc main_v3) = W7 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keeps

/-- `main_v3` (computed once before the first kernel) is carried unchanged from boundary 10 to boundary 13. -/
theorem v3_13_10 (c : Dev nD) : W13 m ρ c (Proc.devRef .tc main_v3) = W10 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := by host_keeps

/-- `main_v6` (computed once before the first kernel) is carried unchanged from boundary 3 to boundary 4. -/
theorem v6_4_3 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- `main_v6` (computed once before the first kernel) is carried unchanged from boundary 4 to boundary 7. -/
theorem v6_7_4 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps

/-- `main_v6` (computed once before the first kernel) is carried unchanged from boundary 7 to boundary 10. -/
theorem v6_10_7 (c : Dev nD) : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_keeps

/-- `main_v6` (computed once before the first kernel) is carried unchanged from boundary 10 to boundary 13. -/
theorem v6_13_10 (c : Dev nD) : W13 m ρ c (Proc.devRef .tc main_v6) = W10 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := by host_keeps

/-- `main_v29` (computed once before the first kernel) is carried unchanged from boundary 3 to boundary 4. -/
theorem v29_4_3 (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- `main_v29` (computed once before the first kernel) is carried unchanged from boundary 4 to boundary 7. -/
theorem v29_7_4 (c : Dev nD) : W7 m ρ c (Proc.devRef .tc main_v29) = W4 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keeps

/-- `main_v29` (computed once before the first kernel) is carried unchanged from boundary 7 to boundary 10. -/
theorem v29_10_7 (c : Dev nD) : W10 m ρ c (Proc.devRef .tc main_v29) = W7 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := by host_keeps

/-- `main_v29` (computed once before the first kernel) is carried unchanged from boundary 10 to boundary 13. -/
theorem v29_13_10 (c : Dev nD) : W13 m ρ c (Proc.devRef .tc main_v29) = W10 m ρ c (Proc.devRef .tc main_v29) :=
  calc W13 m ρ c (Proc.devRef .tc main_v29)
    _ = W12 m ρ c (Proc.devRef .tc main_v29) := W13_of_ne m ρ c main_v29 (by decide)
    _ = W11 m ρ c (Proc.devRef .tc main_v29) := W12_of_ne m ρ c main_v29 (by decide)
    _ = W10 m ρ c (Proc.devRef .tc main_v29) := by host_keeps

end Cert.KernelIdeal.Keep

end
-- ==== Proof.Prologue.lean ====
/-
  The edge quantities the kernel program computes before its first kernel.  Its first forty host operations are
  the reference's own: from the edge list they form the sources and destinations with the self-loops appended, the
  degrees, and the edge weights.  At the entry of the first kernel those three buffers therefore hold `srcIdx`,
  `dstIdx` and `edgeNorm` of the edge list as launched: each buffer's contents there are the host operations' composed
  term of the launch memory, which is the definition's own text.
-/
import proofs.«175226_j66958540144840_1_alg».proof.Proof.Gen.KernelIdeal.Frame
import proofs.«175226_j66958540144840_1_alg».proof.Proof.Spec
import Idealize.ShloMosaic.Lib.StableHlo.Run

set_option maxRecDepth 16384

noncomputable section

namespace Cert.KernelIdeal.Prologue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The sources with the self-loops, at the first kernel's entry. -/
theorem src (c : Dev nD) :
    W3 m ρ c (Proc.devRef .tc main_v3) = Cert.ReferenceIdeal.Spec.srcIdx (m ((c : Thread nD τ).loc main_arg1)) := by
  show StableHlo.after hostOps0_2 (StableHlo.after hostOps0_1 (StableHlo.after hostOps0 (W0 m ρ c))) (Proc.devRef .tc main_v3) = _
  after_results
  rfl

/-- The destinations with the self-loops, at the first kernel's entry. -/
theorem dst (c : Dev nD) :
    W3 m ρ c (Proc.devRef .tc main_v6) = Cert.ReferenceIdeal.Spec.dstIdx (m ((c : Thread nD τ).loc main_arg1)) := by
  show StableHlo.after hostOps0_2 (StableHlo.after hostOps0_1 (StableHlo.after hostOps0 (W0 m ρ c))) (Proc.devRef .tc main_v6) = _
  after_results
  rfl

set_option maxHeartbeats 4000000 in
/-- The edge weights, at the first kernel's entry. -/
theorem norm (c : Dev nD) :
    W3 m ρ c (Proc.devRef .tc main_v29) = Cert.ReferenceIdeal.Spec.edgeNorm (m ((c : Thread nD τ).loc main_arg1)) := by
  show StableHlo.after hostOps0_2 (StableHlo.after hostOps0_1 (StableHlo.after hostOps0 (W0 m ρ c))) (Proc.devRef .tc main_v29) = _
  after_results_simp
  rfl

end Cert.KernelIdeal.Prologue

end
-- ==== Proof.HostStretch.lean ====
/-
  The four host stretches between the kernels.  Each is the reference's own message passing applied to the previous
  kernel's output `h`: gather row `s` of `h` for every edge `s → d`, scale it by the edge's weight, scatter-add into row
  `d` — with the source indices, destination indices and edge weights computed once before the first kernel and
  carried unchanged to the stretch — and beside it the reshape of the layer's bias vector `[f]` into one row `[1, f]`.
  So at the stretch's end the aggregate buffer holds `aggregate…` of the edge list and of `h` as the stretch found
  it, and the row buffer the bias as launched, reshaped.
-/
import proofs.«175226_j66958540144840_1_alg».proof.Proof.Keep
import proofs.«175226_j66958540144840_1_alg».proof.Proof.Prologue

set_option maxRecDepth 16384

noncomputable section

namespace Cert.KernelIdeal.HostStretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- Host stretch 1: the weighted gather–scatter-add of the previous kernel's output `main_v30`. -/
theorem agg1 (c : Dev nD) :
    W5 m ρ c (Proc.devRef .tc main_v43)
      = Cert.ReferenceIdeal.Spec.aggregate128 (m ((c : Thread nD τ).loc main_arg1)) (W4 m ρ c (Proc.devRef .tc main_v30)) := by
  show StableHlo.after hostOps1 (W4 m ρ c) (Proc.devRef .tc main_v43) = _
  after_results
  rw [Keep.v3_4_3 m ρ c, Keep.v6_4_3 m ρ c, Keep.v29_4_3 m ρ c]

  rw [Prologue.src m ρ c, Prologue.dst m ρ c, Prologue.norm m ρ c]
  rfl

/-- Host stretch 1: the layer's bias vector laid out as one row. -/
theorem row1 (c : Dev nD) :
    W5 m ρ c (Proc.devRef .tc main_v44)
      = (shapeCast S1x128 (m ((c : Thread nD τ).loc main_arg3)) shapeCasts_S128_S1x128 : FVec F S1x128 .f32) := by
  show StableHlo.after hostOps1 (W4 m ρ c) (Proc.devRef .tc main_v44) = _
  after_results
  rw [Keep.arg3_at4 m ρ c]
  rfl

set_option maxHeartbeats 4000000 in
/-- Host stretch 3: the weighted gather–scatter-add of the previous kernel's output `main_v46`. -/
theorem agg3 (c : Dev nD) :
    W8 m ρ c (Proc.devRef .tc main_v59)
      = Cert.ReferenceIdeal.Spec.aggregate128 (m ((c : Thread nD τ).loc main_arg1)) (W7 m ρ c (Proc.devRef .tc main_v46)) := by
  show StableHlo.after hostOps3 (W7 m ρ c) (Proc.devRef .tc main_v59) = _
  after_results
  rw [Keep.v3_7_4 m ρ c, Keep.v6_7_4 m ρ c, Keep.v29_7_4 m ρ c]
  rw [Keep.v3_4_3 m ρ c, Keep.v6_4_3 m ρ c, Keep.v29_4_3 m ρ c]
  rw [Prologue.src m ρ c, Prologue.dst m ρ c, Prologue.norm m ρ c]
  rfl

/-- Host stretch 3: the layer's bias vector laid out as one row. -/
theorem row3 (c : Dev nD) :
    W8 m ρ c (Proc.devRef .tc main_v60)
      = (shapeCast S1x128 (m ((c : Thread nD τ).loc main_arg5)) shapeCasts_S128_S1x128 : FVec F S1x128 .f32) := by
  show StableHlo.after hostOps3 (W7 m ρ c) (Proc.devRef .tc main_v60) = _
  after_results
  rw [Keep.arg5_at7 m ρ c]
  rfl

set_option maxHeartbeats 4000000 in
/-- Host stretch 5: the weighted gather–scatter-add of the previous kernel's output `main_v62`. -/
theorem agg5 (c : Dev nD) :
    W11 m ρ c (Proc.devRef .tc main_v75)
      = Cert.ReferenceIdeal.Spec.aggregate128 (m ((c : Thread nD τ).loc main_arg1)) (W10 m ρ c (Proc.devRef .tc main_v62)) := by
  show StableHlo.after hostOps5 (W10 m ρ c) (Proc.devRef .tc main_v75) = _
  after_results
  rw [Keep.v3_10_7 m ρ c, Keep.v6_10_7 m ρ c, Keep.v29_10_7 m ρ c]
  rw [Keep.v3_7_4 m ρ c, Keep.v6_7_4 m ρ c, Keep.v29_7_4 m ρ c,
    Keep.v3_4_3 m ρ c, Keep.v6_4_3 m ρ c, Keep.v29_4_3 m ρ c]
  rw [Prologue.src m ρ c, Prologue.dst m ρ c, Prologue.norm m ρ c]
  rfl

/-- Host stretch 5: the layer's bias vector laid out as one row. -/
theorem row5 (c : Dev nD) :
    W11 m ρ c (Proc.devRef .tc main_v76)
      = (shapeCast S1x128 (m ((c : Thread nD τ).loc main_arg7)) shapeCasts_S128_S1x128 : FVec F S1x128 .f32) := by
  show StableHlo.after hostOps5 (W10 m ρ c) (Proc.devRef .tc main_v76) = _
  after_results
  rw [Keep.arg7_at10 m ρ c]
  rfl

set_option maxHeartbeats 4000000 in
/-- Host stretch 7: the weighted gather–scatter-add of the previous kernel's output `main_v78`. -/
theorem agg7 (c : Dev nD) :
    W14 m ρ c (Proc.devRef .tc main_v91)
      = Cert.ReferenceIdeal.Spec.aggregate64 (m ((c : Thread nD τ).loc main_arg1)) (W13 m ρ c (Proc.devRef .tc main_v78)) := by
  show StableHlo.after hostOps7 (W13 m ρ c) (Proc.devRef .tc main_v91) = _
  after_results
  rw [Keep.v3_13_10 m ρ c, Keep.v6_13_10 m ρ c, Keep.v29_13_10 m ρ c]
  rw [Keep.v3_10_7 m ρ c, Keep.v6_10_7 m ρ c, Keep.v29_10_7 m ρ c,
    Keep.v3_7_4 m ρ c, Keep.v6_7_4 m ρ c, Keep.v29_7_4 m ρ c,
    Keep.v3_4_3 m ρ c, Keep.v6_4_3 m ρ c, Keep.v29_4_3 m ρ c]
  rw [Prologue.src m ρ c, Prologue.dst m ρ c, Prologue.norm m ρ c]
  rfl

/-- Host stretch 7: the layer's bias vector laid out as one row. -/
theorem row7 (c : Dev nD) :
    W14 m ρ c (Proc.devRef .tc main_v92)
      = (shapeCast S1x64 (m ((c : Thread nD τ).loc main_arg9)) shapeCasts_S64_S1x64 : FVec F S1x64 .f32) := by
  show StableHlo.after hostOps7 (W13 m ρ c) (Proc.devRef .tc main_v92) = _
  after_results
  rw [Keep.arg9_at13 m ρ c]
  rfl

end Cert.KernelIdeal.HostStretch

end
-- ==== Proof.LibMatmulAt.lean ====
/-
  A matrix product with one contracted axis, read at an entry, on the extended reals: whatever record of dimension
  numbers describes "rows of the left factor against columns of the right one", the product into a zero accumulator
  (the form a kernel body has) and the host's product (the form a reference has) are both the plain sum over the
  contracted coordinate. The record enters only through four facts about where it sends an output index and a
  contraction index, which are decided per record.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : Nat} (D : DotDims ⟨2, ![a, K]⟩ ⟨2, ![K, b]⟩ ⟨2, ![a, b]⟩)
  (hr : D.contr.rank = 1) (hs : D.contr.size ⟨0, by omega⟩ = K)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
  {φ₁ φ₂ : FTy}

include hr hs hl0 hl1 hr0 hr1 in
/-- The contraction sum of a rows-by-columns product at `(p, q)` is the sum over `k` of `l (p, k) * r (k, q)`. -/
theorem contr_sum_apply (l : FVec Ideal ⟨2, ![a, K]⟩ φ₁) (r : FVec Ideal ⟨2, ![K, b]⟩ φ₂) (p : Fin a) (q : Fin b) :
    (∑ k : D.contr.Idx, l (D.lhsIdx (ix2 p q) k) * r (D.rhsIdx (ix2 p q) k)) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun x => Fin.ext (by
    match x with
    | ⟨0, _⟩ => exact hl0 _ _
    | ⟨1, _⟩ => exact (hl1 _ _).trans hk)
  have er : D.rhsIdx (ix2 p q) ((contrEquiv1 D K hr hs).symm k) = ix2 k q := funext fun x => Fin.ext (by
    match x with
    | ⟨0, _⟩ => exact (hr0 _ _).trans hk
    | ⟨1, _⟩ => exact hr1 _ _)
  rw [el, er]

include hr hs hl0 hl1 hr0 hr1 in
/-- A kernel body's product into the zero accumulator, at `(p, q)`. -/
theorem matmul_zero_apply (l : FVec Ideal ⟨2, ![a, K]⟩ φ₁) (r : FVec Ideal ⟨2, ![K, b]⟩ φ₂) (p : Fin a) (q : Fin b) :
    matmul D none l r (constant ⟨2, ![a, b]⟩ .f32 0x00000000#32) (ix2 p q) = ∑ k : Fin K, l (ix2 p k) * r (ix2 k q) := by
  refine (Ideal.matmul_constant_zero_apply D none l r (ix2 p q)).trans ?_
  exact contr_sum_apply D hr hs hl0 hl1 hr0 hr1 l r p q

include hr hs hl0 hl1 hr0 hr1 in
/-- The host's product, at `(p, q)`. -/
theorem dotGeneral_plain_apply (prec : Option ContractPrecision) (sched : HostSchedule)
    (l : FVec Ideal ⟨2, ![a, K]⟩ φ₁) (r : FVec Ideal ⟨2, ![K, b]⟩ φ₂) (p : Fin a) (q : Fin b) :
    FloatOps.dotGeneral D prec sched l r (ix2 p q) = ∑ k : Fin K, l (ix2 p k) * r (ix2 k q) := by
  refine (Ideal.dotGeneral_apply D prec sched l r (ix2 p q)).trans ?_
  exact contr_sum_apply D hr hs hl0 hl1 hr0 hr1 l r p q

end Cert.Lib

end
-- ==== Proof.RegionMatmul0.lean ====
/-
  Region 0 of the kernel is a row-blocked matrix product. The 100000 × 128 left array is cut into 50 blocks of 2000
  rows, the 128 × 128 right array is staged whole, and at every block the body multiplies the two: the narrowing of the
  factors is the identity on the extended reals, and the product into the zero accumulator is the plain sum over the
  contracted coordinate. This module proves that, after all 50 blocks, the 100000 × 128 output array is the host's product
  of the two input arrays as the region finds them: entry (r, q) of either side is the sum over k of
  left (r, k) · right (k, q).
-/
import proofs.«175226_j66958540144840_1_alg».proof.Proof.Gen.KernelIdeal.Frame
import proofs.«175226_j66958540144840_1_alg».proof.Proof.Gen.ReferenceIdeal
import proofs.«175226_j66958540144840_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open scoped BigOperators

/-! ## The two records of dimension numbers: rows of the left factor against columns of the right one -/

/-- The block product's record contracts one axis … -/
theorem blk0_rank : dot_S2000x128_S128x128_S2000x128_1_0_0_1_n_n.contr.rank = 1 := rfl
/-- … of extent 128. -/
theorem blk0_size : dot_S2000x128_S128x128_S2000x128_1_0_0_1_n_n.contr.size ⟨0, by rw [blk0_rank]; omega⟩ = 128 := rfl
/-- The left factor is read at (row of the output, contracted coordinate) … -/
theorem blk0_l0 : ∀ (i : S2000x128.Idx) (q : dot_S2000x128_S128x128_S2000x128_1_0_0_1_n_n.contr.Idx), (dot_S2000x128_S128x128_S2000x128_1_0_0_1_n_n.lhsIdx i q 0).val = (i 0).val := fun _ _ => rfl
theorem blk0_l1 : ∀ (i : S2000x128.Idx) (q : dot_S2000x128_S128x128_S2000x128_1_0_0_1_n_n.contr.Idx),
    (dot_S2000x128_S128x128_S2000x128_1_0_0_1_n_n.lhsIdx i q 1).val = (q ⟨0, by rw [blk0_rank]; omega⟩).val := fun _ _ => rfl
/-- … and the right factor at (contracted coordinate, column of the output). -/
theorem blk0_r0 : ∀ (i : S2000x128.Idx) (q : dot_S2000x128_S128x128_S2000x128_1_0_0_1_n_n.contr.Idx),
    (dot_S2000x128_S128x128_S2000x128_1_0_0_1_n_n.rhsIdx i q 0).val = (q ⟨0, by rw [blk0_rank]; omega⟩).val := fun _ _ => rfl
theorem blk0_r1 : ∀ (i : S2000x128.Idx) (q : dot_S2000x128_S128x128_S2000x128_1_0_0_1_n_n.contr.Idx), (dot_S2000x128_S128x128_S2000x128_1_0_0_1_n_n.rhsIdx i q 1).val = (i 1).val := fun _ _ => rfl

/-- The same four facts for the whole-array product's record. -/
theorem whole0_rank : Cert.ReferenceIdeal.dot_S100000x128_S128x128_S100000x128_1_0_0_1_n_n.contr.rank = 1 := rfl
theorem whole0_size : Cert.ReferenceIdeal.dot_S100000x128_S128x128_S100000x128_1_0_0_1_n_n.contr.size ⟨0, by rw [whole0_rank]; omega⟩ = 128 := rfl
theorem whole0_l0 : ∀ (i : S100000x128.Idx) (q : Cert.ReferenceIdeal.dot_S100000x128_S128x128_S100000x128_1_0_0_1_n_n.contr.Idx),
    (Cert.ReferenceIdeal.dot_S100000x128_S128x128_S100000x128_1_0_0_1_n_n.lhsIdx i q 0).val = (i 0).val := fun _ _ => rfl
theorem whole0_l1 : ∀ (i : S100000x128.Idx) (q : Cert.ReferenceIdeal.dot_S100000x128_S128x128_S100000x128_1_0_0_1_n_n.contr.Idx),
    (Cert.ReferenceIdeal.dot_S100000x128_S128x128_S100000x128_1_0_0_1_n_n.lhsIdx i q 1).val = (q ⟨0, by rw [whole0_rank]; omega⟩).val := fun _ _ => rfl
theorem whole0_r0 : ∀ (i : S100000x128.Idx) (q : Cert.ReferenceIdeal.dot_S100000x128_S128x128_S100000x128_1_0_0_1_n_n.contr.Idx),
    (Cert.ReferenceIdeal.dot_S100000x128_S128x128_S100000x128_1_0_0_1_n_n.rhsIdx i q 0).val = (q ⟨0, by rw [whole0_rank]; omega⟩).val := fun _ _ => rfl
theorem whole0_r1 : ∀ (i : S100000x128.Idx) (q : Cert.ReferenceIdeal.dot_S100000x128_S128x128_S100000x128_1_0_0_1_n_n.contr.Idx),
    (Cert.ReferenceIdeal.dot_S100000x128_S128x128_S100000x128_1_0_0_1_n_n.rhsIdx i q 1).val = (i 1).val := fun _ _ => rfl

/-! ## The body at an entry of a block -/

/-- Entry (p, q) of what the body stores is the sum over k of (block of the left array) (p, k) · (right array) (k, q). -/
theorem pay0_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact Cert.Lib.matmul_zero_apply dot_S2000x128_S128x128_S2000x128_1_0_0_1_n_n blk0_rank blk0_size blk0_l0 blk0_l1 blk0_r0 blk0_r1 _ _ p q

/-- Entry (r, q) of the host's product of the two whole arrays is the sum over k of left (r, k) · right (k, q). -/
theorem host0_apply (A : FVec Ideal S100000x128 .f32) (B : FVec Ideal S128x128 .f32) (r : Fin 100000) (q : Fin 128) :
    (Host.dotGeneral (F := Ideal) (φ₁ := .f32) (φ₂ := .f32) Cert.ReferenceIdeal.dot_S100000x128_S128x128_S100000x128_1_0_0_1_n_n none A B : FVec Ideal S100000x128 .f32) (ix2 r q)
      = ∑ k : Fin 128, A (ix2 r k) * B (ix2 k q) :=
  Cert.Lib.dotGeneral_plain_apply Cert.ReferenceIdeal.dot_S100000x128_S128x128_S100000x128_1_0_0_1_n_n whole0_rank whole0_size whole0_l0 whole0_l1 whole0_r0 whole0_r1
    none .single A B r q

/-- One entry of one block: when the left block `x0` holds the rows of `A` from row `n` on (`e0` sends a block index to the
    array index `n` rows further down, same column) and the right block `x1` holds `B` entry for entry, entry `j` of the body's
    result is entry `i` of the host's product of `A` and `B`, `i` being `j` moved `n` rows down. Both are the same sum. -/
theorem point0_eq (A : FVec Ideal S100000x128 .f32) (B : FVec Ideal S128x128 .f32)
    (x0 : Vec Ideal S2000x128 .f32) (x1 : Vec Ideal S128x128 .f32) (n : Nat)
    (e0 : S2000x128.Idx → S100000x128.Idx) (e1 : S128x128.Idx → S128x128.Idx) (i : S100000x128.Idx) (j : S2000x128.Idx)
    (hx0 : ∀ y, x0 y = A (e0 y)) (hx1 : ∀ y, x1 y = B (e1 y))
    (h00 : ∀ y, (e0 y 0).val = n + (y 0).val) (h01 : ∀ y, (e0 y 1).val = (y 1).val)
    (h10 : ∀ y, (e1 y 0).val = (y 0).val) (h11 : ∀ y, (e1 y 1).val = (y 1).val)
    (hi0 : (i 0).val = n + (j 0).val) (hi1 : (i 1).val = (j 1).val) :
    k0_pay1 x0 x1 j = (Host.dotGeneral (F := Ideal) (φ₁ := .f32) (φ₂ := .f32) Cert.ReferenceIdeal.dot_S100000x128_S128x128_S100000x128_1_0_0_1_n_n none A B : FVec Ideal S100000x128 .f32) i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [pay0_apply, host0_apply]
  refine Finset.sum_congr rfl fun k _ => ?_
  have ea : e0 (ix2 p k) = ix2 r k := funext fun a => Fin.ext (by
    match a with
    | ⟨0, _⟩ => exact (h00 _).trans hi0.symm
    | ⟨1, _⟩ => exact h01 _)
  have eb : e1 (ix2 k s) = ix2 k s := funext fun a => Fin.ext (by
    match a with
    | ⟨0, _⟩ => exact h10 _
    | ⟨1, _⟩ => exact h11 _)
  rw [hx0, hx1, ea, eb]

/-! ## From the 50 blocks to the array -/

theorem zero_offsets0 : (![0, 0] : Fin 2 → Nat) = fun _ => 0 := funext fun a => by fin_cases a <;> rfl

/-- Where the three windows sit at grid point `t` (decided over the 50 points): the left array's and the output's block is
    block `t` of rows, the right array's block is the whole array. -/
theorem blocks_at0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- What grid point `t` writes back is block `t` of the host's product of the two arrays the region finds: rows
    2000 t … 2000 t + 1999, the left array read at the same rows, the right array whole. -/
theorem flushed0_eq (t : Fin cfg0.N) :
    (dat0 V c).flushed 2 t = ((cfg0.win 2).blk t).view.read (Elt Ideal)
      (Host.dotGeneral (F := Ideal) (φ₁ := .f32) (φ₂ := .f32) Cert.ReferenceIdeal.dot_S100000x128_S128x128_S100000x128_1_0_0_1_n_n none (V c main_arg0) (V c main_arg2)) := by
  show (cfg0.win 2).cut (grid0.coords t) ((dat0 V c).after 2 t) = _
  rw [after0_2]
  unfold out0_2
  rw [View.canon_unit_zero zero_offsets0]
  simp only [View.ld_unit_zero (S := S2000x128) zero_offsets0, View.ld_unit_zero (S := S128x128) zero_offsets0]
  obtain ⟨a0, a1, b0, b1, o0, o1⟩ := blocks_at0 t
  funext j
  refine point0_eq (V c main_arg0) (V c main_arg2) _ _ (t.val * 2000)
    (fun y => ((cfg0.win 0).blk t).view.emb y) (fun y => ((cfg0.win 1).blk t).view.emb y)
    (((cfg0.win 2).blk t).view.emb j) j (fun _ => rfl) (fun _ => rfl) ?_ ?_ ?_ ?_ ?_ ?_
  · intro y
    show win0_0.index t (0 : Fin 2) * 2000 + 1 * (y 0).val = t.val * 2000 + (y 0).val
    omega
  · intro y
    show win0_0.index t (1 : Fin 2) * 128 + 1 * (y 1).val = (y 1).val
    omega
  · intro y
    show win0_1.index t (0 : Fin 2) * 128 + 1 * (y 0).val = (y 0).val
    omega
  · intro y
    show win0_1.index t (1 : Fin 2) * 128 + 1 * (y 1).val = (y 1).val
    omega
  · show win0_2.index t (0 : Fin 2) * 2000 + 1 * (j 0).val = t.val * 2000 + (j 0).val
    omega
  · show win0_2.index t (1 : Fin 2) * 128 + 1 * (j 1).val = (j 1).val
    omega

/-- An index of the output array is in grid point `t`'s block iff each coordinate is in the block's range on its axis. -/
theorem mem_block0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every row of the output is in some block: row `r` is in block `r / 2000`. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < 50 := by omega
  obtain ⟨-, -, -, -, o0, o1⟩ := blocks_at0 ⟨(i 0).val / 2000, ht⟩
  have o0' : win0_2.index ⟨(i 0).val / 2000, ht⟩ (0 : Fin 2) = (i 0).val / 2000 := o0
  refine ⟨⟨(i 0).val / 2000, ht⟩, flush0_2 _, ?_⟩
  rw [mem_block0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    omega

/-- THE ARRAY after the region's 50 points: the host's product of the two arrays the region finds. -/
theorem arr0 :
    (dat0 V c).arrAt 2 cfg0.N
      = Host.dotGeneral (F := Ideal) (φ₁ := .f32) (φ₂ := .f32) Cert.ReferenceIdeal.dot_S100000x128_S128x128_S100000x128_1_0_0_1_n_n none (V c main_arg0) (V c main_arg2) :=
  (dat0 V c).arrAt_eq_of_cover 2 _ (fun t _ => flushed0_eq V c t) (covered0)

end

end Cert.KernelIdeal.RegionValue

end
-- ==== Proof.RegionMatmul2.lean ====
/-
  Region 2 of the kernel is a row-blocked matrix product. The 100000 × 128 left array is cut into 50 blocks of 2000
  rows, the 128 × 128 right array is staged whole, and at every block the body multiplies the two: the narrowing of the
  factors is the identity on the extended reals, and the product into the zero accumulator is the plain sum over the
  contracted coordinate. This module proves that, after all 50 blocks, the 100000 × 128 output array is the host's product
  of the two input arrays as the region finds them: entry (r, q) of either side is the sum over k of
  left (r, k) · right (k, q).
-/
import proofs.«175226_j66958540144840_1_alg».proof.Proof.Gen.KernelIdeal.Frame
import proofs.«175226_j66958540144840_1_alg».proof.Proof.Gen.ReferenceIdeal
import proofs.«175226_j66958540144840_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open scoped BigOperators

/-! ## The two records of dimension numbers: rows of the left factor against columns of the right one -/

/-- The block product's record contracts one axis … -/
theorem blk2_rank : dot_S2000x128_S128x128_S2000x128_1_0_0_1_n_n.contr.rank = 1 := rfl
/-- … of extent 128. -/
theorem blk2_size : dot_S2000x128_S128x128_S2000x128_1_0_0_1_n_n.contr.size ⟨0, by rw [blk2_rank]; omega⟩ = 128 := rfl
/-- The left factor is read at (row of the output, contracted coordinate) … -/
theorem blk2_l0 : ∀ (i : S2000x128.Idx) (q : dot_S2000x128_S128x128_S2000x128_1_0_0_1_n_n.contr.Idx), (dot_S2000x128_S128x128_S2000x128_1_0_0_1_n_n.lhsIdx i q 0).val = (i 0).val := fun _ _ => rfl
theorem blk2_l1 : ∀ (i : S2000x128.Idx) (q : dot_S2000x128_S128x128_S2000x128_1_0_0_1_n_n.contr.Idx),
    (dot_S2000x128_S128x128_S2000x128_1_0_0_1_n_n.lhsIdx i q 1).val = (q ⟨0, by rw [blk2_rank]; omega⟩).val := fun _ _ => rfl
/-- … and the right factor at (contracted coordinate, column of the output). -/
theorem blk2_r0 : ∀ (i : S2000x128.Idx) (q : dot_S2000x128_S128x128_S2000x128_1_0_0_1_n_n.contr.Idx),
    (dot_S2000x128_S128x128_S2000x128_1_0_0_1_n_n.rhsIdx i q 0).val = (q ⟨0, by rw [blk2_rank]; omega⟩).val := fun _ _ => rfl
theorem blk2_r1 : ∀ (i : S2000x128.Idx) (q : dot_S2000x128_S128x128_S2000x128_1_0_0_1_n_n.contr.Idx), (dot_S2000x128_S128x128_S2000x128_1_0_0_1_n_n.rhsIdx i q 1).val = (i 1).val := fun _ _ => rfl

/-- The same four facts for the whole-array product's record. -/
theorem whole2_rank : Cert.ReferenceIdeal.dot_S100000x128_S128x128_S100000x128_1_0_0_1_n_n.contr.rank = 1 := rfl
theorem whole2_size : Cert.ReferenceIdeal.dot_S100000x128_S128x128_S100000x128_1_0_0_1_n_n.contr.size ⟨0, by rw [whole2_rank]; omega⟩ = 128 := rfl
theorem whole2_l0 : ∀ (i : S100000x128.Idx) (q : Cert.ReferenceIdeal.dot_S100000x128_S128x128_S100000x128_1_0_0_1_n_n.contr.Idx),
    (Cert.ReferenceIdeal.dot_S100000x128_S128x128_S100000x128_1_0_0_1_n_n.lhsIdx i q 0).val = (i 0).val := fun _ _ => rfl
theorem whole2_l1 : ∀ (i : S100000x128.Idx) (q : Cert.ReferenceIdeal.dot_S100000x128_S128x128_S100000x128_1_0_0_1_n_n.contr.Idx),
    (Cert.ReferenceIdeal.dot_S100000x128_S128x128_S100000x128_1_0_0_1_n_n.lhsIdx i q 1).val = (q ⟨0, by rw [whole2_rank]; omega⟩).val := fun _ _ => rfl
theorem whole2_r0 : ∀ (i : S100000x128.Idx) (q : Cert.ReferenceIdeal.dot_S100000x128_S128x128_S100000x128_1_0_0_1_n_n.contr.Idx),
    (Cert.ReferenceIdeal.dot_S100000x128_S128x128_S100000x128_1_0_0_1_n_n.rhsIdx i q 0).val = (q ⟨0, by rw [whole2_rank]; omega⟩).val := fun _ _ => rfl
theorem whole2_r1 : ∀ (i : S100000x128.Idx) (q : Cert.ReferenceIdeal.dot_S100000x128_S128x128_S100000x128_1_0_0_1_n_n.contr.Idx),
    (Cert.ReferenceIdeal.dot_S100000x128_S128x128_S100000x128_1_0_0_1_n_n.rhsIdx i q 1).val = (i 1).val := fun _ _ => rfl

/-! ## The body at an entry of a block -/

/-- Entry (p, q) of what the body stores is the sum over k of (block of the left array) (p, k) · (right array) (k, q). -/
theorem pay2_apply (x0 : Vec Ideal S2000x128 .f32) (x1 : Vec Ideal S128x128 .f32) (p : Fin 2000) (q : Fin 128) :
    k2_pay1 x0 x1 (ix2 p q) = ∑ k : Fin 128, x0 (ix2 p k) * x1 (ix2 k q) := by
  unfold k2_pay1
  rw [shapeCast_self]
  exact Cert.Lib.matmul_zero_apply dot_S2000x128_S128x128_S2000x128_1_0_0_1_n_n blk2_rank blk2_size blk2_l0 blk2_l1 blk2_r0 blk2_r1 _ _ p q

/-- Entry (r, q) of the host's product of the two whole arrays is the sum over k of left (r, k) · right (k, q). -/
theorem host2_apply (A : FVec Ideal S100000x128 .f32) (B : FVec Ideal S128x128 .f32) (r : Fin 100000) (q : Fin 128) :
    (Host.dotGeneral (F := Ideal) (φ₁ := .f32) (φ₂ := .f32) Cert.ReferenceIdeal.dot_S100000x128_S128x128_S100000x128_1_0_0_1_n_n none A B : FVec Ideal S100000x128 .f32) (ix2 r q)
      = ∑ k : Fin 128, A (ix2 r k) * B (ix2 k q) :=
  Cert.Lib.dotGeneral_plain_apply Cert.ReferenceIdeal.dot_S100000x128_S128x128_S100000x128_1_0_0_1_n_n whole2_rank whole2_size whole2_l0 whole2_l1 whole2_r0 whole2_r1
    none .single A B r q

/-- One entry of one block: when the left block `x0` holds the rows of `A` from row `n` on (`e0` sends a block index to the
    array index `n` rows further down, same column) and the right block `x1` holds `B` entry for entry, entry `j` of the body's
    result is entry `i` of the host's product of `A` and `B`, `i` being `j` moved `n` rows down. Both are the same sum. -/
theorem point2_eq (A : FVec Ideal S100000x128 .f32) (B : FVec Ideal S128x128 .f32)
    (x0 : Vec Ideal S2000x128 .f32) (x1 : Vec Ideal S128x128 .f32) (n : Nat)
    (e0 : S2000x128.Idx → S100000x128.Idx) (e1 : S128x128.Idx → S128x128.Idx) (i : S100000x128.Idx) (j : S2000x128.Idx)
    (hx0 : ∀ y, x0 y = A (e0 y)) (hx1 : ∀ y, x1 y = B (e1 y))
    (h00 : ∀ y, (e0 y 0).val = n + (y 0).val) (h01 : ∀ y, (e0 y 1).val = (y 1).val)
    (h10 : ∀ y, (e1 y 0).val = (y 0).val) (h11 : ∀ y, (e1 y 1).val = (y 1).val)
    (hi0 : (i 0).val = n + (j 0).val) (hi1 : (i 1).val = (j 1).val) :
    k2_pay1 x0 x1 j = (Host.dotGeneral (F := Ideal) (φ₁ := .f32) (φ₂ := .f32) Cert.ReferenceIdeal.dot_S100000x128_S128x128_S100000x128_1_0_0_1_n_n none A B : FVec Ideal S100000x128 .f32) i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [pay2_apply, host2_apply]
  refine Finset.sum_congr rfl fun k _ => ?_
  have ea : e0 (ix2 p k) = ix2 r k := funext fun a => Fin.ext (by
    match a with
    | ⟨0, _⟩ => exact (h00 _).trans hi0.symm
    | ⟨1, _⟩ => exact h01 _)
  have eb : e1 (ix2 k s) = ix2 k s := funext fun a => Fin.ext (by
    match a with
    | ⟨0, _⟩ => exact h10 _
    | ⟨1, _⟩ => exact h11 _)
  rw [hx0, hx1, ea, eb]

/-! ## From the 50 blocks to the array -/

theorem zero_offsets2 : (![0, 0] : Fin 2 → Nat) = fun _ => 0 := funext fun a => by fin_cases a <;> rfl

/-- Where the three windows sit at grid point `t` (decided over the 50 points): the left array's and the output's block is
    block `t` of rows, the right array's block is the whole array. -/
theorem blocks_at2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- What grid point `t` writes back is block `t` of the host's product of the two arrays the region finds: rows
    2000 t … 2000 t + 1999, the left array read at the same rows, the right array whole. -/
theorem flushed2_eq (t : Fin cfg2.N) :
    (dat2 V c).flushed 2 t = ((cfg2.win 2).blk t).view.read (Elt Ideal)
      (Host.dotGeneral (F := Ideal) (φ₁ := .f32) (φ₂ := .f32) Cert.ReferenceIdeal.dot_S100000x128_S128x128_S100000x128_1_0_0_1_n_n none (V c main_v45) (V c main_arg4)) := by
  show (cfg2.win 2).cut (grid2.coords t) ((dat2 V c).after 2 t) = _
  rw [after2_2]
  unfold out2_2
  rw [View.canon_unit_zero zero_offsets2]
  simp only [View.ld_unit_zero (S := S2000x128) zero_offsets2, View.ld_unit_zero (S := S128x128) zero_offsets2]
  obtain ⟨a0, a1, b0, b1, o0, o1⟩ := blocks_at2 t
  funext j
  refine point2_eq (V c main_v45) (V c main_arg4) _ _ (t.val * 2000)
    (fun y => ((cfg2.win 0).blk t).view.emb y) (fun y => ((cfg2.win 1).blk t).view.emb y)
    (((cfg2.win 2).blk t).view.emb j) j (fun _ => rfl) (fun _ => rfl) ?_ ?_ ?_ ?_ ?_ ?_
  · intro y
    show win2_0.index t (0 : Fin 2) * 2000 + 1 * (y 0).val = t.val * 2000 + (y 0).val
    omega
  · intro y
    show win2_0.index t (1 : Fin 2) * 128 + 1 * (y 1).val = (y 1).val
    omega
  · intro y
    show win2_1.index t (0 : Fin 2) * 128 + 1 * (y 0).val = (y 0).val
    omega
  · intro y
    show win2_1.index t (1 : Fin 2) * 128 + 1 * (y 1).val = (y 1).val
    omega
  · show win2_2.index t (0 : Fin 2) * 2000 + 1 * (j 0).val = t.val * 2000 + (j 0).val
    omega
  · show win2_2.index t (1 : Fin 2) * 128 + 1 * (j 1).val = (j 1).val
    omega

/-- An index of the output array is in grid point `t`'s block iff each coordinate is in the block's range on its axis. -/
theorem mem_block2 (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v46).slice (win2_2.rect t)).set ↔ _
  rw [View.set_slice_whole, Rect.mem_set_unit]
  exact Iff.rfl

/-- Every row of the output is in some block: row `r` is in block `r / 2000`. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 2000 < 50 := by omega
  obtain ⟨-, -, -, -, o0, o1⟩ := blocks_at2 ⟨(i 0).val / 2000, ht⟩
  have o0' : win2_2.index ⟨(i 0).val / 2000, ht⟩ (0 : Fin 2) = (i 0).val / 2000 := o0
  refine ⟨⟨(i 0).val / 2000, ht⟩, flush2_2 _, ?_⟩
  rw [mem_block2]
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    omega
  | ⟨1, _⟩ =>
    show win2_2.index ⟨(i 0).val / 2000, ht⟩ (1 : Fin 2) * 128 ≤ (i 1).val
      ∧ (i 1).val < win2_2.index ⟨(i 0).val / 2000, ht⟩ (1 : Fin 2) * 128 + 128
    omega

/-- THE ARRAY after the region's 50 points: the host's product of the two arrays the region finds. -/
theorem arr2 :
    (dat2 V c).arrAt 2 cfg2.N
      = Host.dotGeneral (F := Ideal) (φ₁ := .f32) (φ₂ := .f32) Cert.ReferenceIdeal.dot_S100000x128_S128x128_S100000x128_1_0_0_1_n_n none (V c main_v45) (V c main_arg4) :=
  (dat2 V c).arrAt_eq_of_cover 2 _ (fun t _ => flushed2_eq V c t) (covered2)

end

end Cert.KernelIdeal.RegionValue

end
-- ==== Proof.RegionMatmul4.lean ====
/-
  Region 4 of the kernel is a row-blocked matrix product. The 100000 × 128 left array is cut into 50 blocks of 2000
  rows, the 128 × 128 right array is staged whole, and at every block the body multiplies the two: the narrowing of the
  factors is the identity on the extended reals, and the product into the zero accumulator is the plain sum over the
  contracted coordinate. This module proves that, after all 50 blocks, the 100000 × 128 output array is the host's product
  of the two input arrays as the region finds them: entry (r, q) of either side is the sum over k of
  left (r, k) · right (k, q).
-/
import proofs.«175226_j66958540144840_1_alg».proof.Proof.Gen.KernelIdeal.Frame
import proofs.«175226_j66958540144840_1_alg».proof.Proof.Gen.ReferenceIdeal
import proofs.«175226_j66958540144840_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open scoped BigOperators

/-! ## The two records of dimension numbers: rows of the left factor against columns of the right one -/

/-- The block product's record contracts one axis … -/
theorem blk4_rank : dot_S2000x128_S128x128_S2000x128_1_0_0_1_n_n.contr.rank = 1 := rfl
/-- … of extent 128. -/
theorem blk4_size : dot_S2000x128_S128x128_S2000x128_1_0_0_1_n_n.contr.size ⟨0, by rw [blk4_rank]; omega⟩ = 128 := rfl
/-- The left factor is read at (row of the output, contracted coordinate) … -/
theorem blk4_l0 : ∀ (i : S2000x128.Idx) (q : dot_S2000x128_S128x128_S2000x128_1_0_0_1_n_n.contr.Idx), (dot_S2000x128_S128x128_S2000x128_1_0_0_1_n_n.lhsIdx i q 0).val = (i 0).val := fun _ _ => rfl
theorem blk4_l1 : ∀ (i : S2000x128.Idx) (q : dot_S2000x128_S128x128_S2000x128_1_0_0_1_n_n.contr.Idx),
    (dot_S2000x128_S128x128_S2000x128_1_0_0_1_n_n.lhsIdx i q 1).val = (q ⟨0, by rw [blk4_rank]; omega⟩).val := fun _ _ => rfl
/-- … and the right factor at (contracted coordinate, column of the output). -/
theorem blk4_r0 : ∀ (i : S2000x128.Idx) (q : dot_S2000x128_S128x128_S2000x128_1_0_0_1_n_n.contr.Idx),
    (dot_S2000x128_S128x128_S2000x128_1_0_0_1_n_n.rhsIdx i q 0).val = (q ⟨0, by rw [blk4_rank]; omega⟩).val := fun _ _ => rfl
theorem blk4_r1 : ∀ (i : S2000x128.Idx) (q : dot_S2000x128_S128x128_S2000x128_1_0_0_1_n_n.contr.Idx), (dot_S2000x128_S128x128_S2000x128_1_0_0_1_n_n.rhsIdx i q 1).val = (i 1).val := fun _ _ => rfl

/-- The same four facts for the whole-array product's record. -/
theorem whole4_rank : Cert.ReferenceIdeal.dot_S100000x128_S128x128_S100000x128_1_0_0_1_n_n.contr.rank = 1 := rfl
theorem whole4_size : Cert.ReferenceIdeal.dot_S100000x128_S128x128_S100000x128_1_0_0_1_n_n.contr.size ⟨0, by rw [whole4_rank]; omega⟩ = 128 := rfl
theorem whole4_l0 : ∀ (i : S100000x128.Idx) (q : Cert.ReferenceIdeal.dot_S100000x128_S128x128_S100000x128_1_0_0_1_n_n.contr.Idx),
    (Cert.ReferenceIdeal.dot_S100000x128_S128x128_S100000x128_1_0_0_1_n_n.lhsIdx i q 0).val = (i 0).val := fun _ _ => rfl
theorem whole4_l1 : ∀ (i : S100000x128.Idx) (q : Cert.ReferenceIdeal.dot_S100000x128_S128x128_S100000x128_1_0_0_1_n_n.contr.Idx),
    (Cert.ReferenceIdeal.dot_S100000x128_S128x128_S100000x128_1_0_0_1_n_n.lhsIdx i q 1).val = (q ⟨0, by rw [whole4_rank]; omega⟩).val := fun _ _ => rfl
theorem whole4_r0 : ∀ (i : S100000x128.Idx) (q : Cert.ReferenceIdeal.dot_S100000x128_S128x128_S100000x128_1_0_0_1_n_n.contr.Idx),
    (Cert.ReferenceIdeal.dot_S100000x128_S128x128_S100000x128_1_0_0_1_n_n.rhsIdx i q 0).val = (q ⟨0, by rw [whole4_rank]; omega⟩).val := fun _ _ => rfl
theorem whole4_r1 : ∀ (i : S100000x128.Idx) (q : Cert.ReferenceIdeal.dot_S100000x128_S128x128_S100000x128_1_0_0_1_n_n.contr.Idx),
    (Cert.ReferenceIdeal.dot_S100000x128_S128x128_S100000x128_1_0_0_1_n_n.rhsIdx i q 1).val = (i 1).val := fun _ _ => rfl

/-! ## The body at an entry of a block -/

/-- Entry (p, q) of what the body stores is the sum over k of (block of the left array) (p, k) · (right array) (k, q). -/
theorem pay4_apply (x0 : Vec Ideal S2000x128 .f32) (x1 : Vec Ideal S128x128 .f32) (p : Fin 2000) (q : Fin 128) :
    k4_pay1 x0 x1 (ix2 p q) = ∑ k : Fin 128, x0 (ix2 p k) * x1 (ix2 k q) := by
  unfold k4_pay1
  rw [shapeCast_self]
  exact Cert.Lib.matmul_zero_apply dot_S2000x128_S128x128_S2000x128_1_0_0_1_n_n blk4_rank blk4_size blk4_l0 blk4_l1 blk4_r0 blk4_r1 _ _ p q

/-- Entry (r, q) of the host's product of the two whole arrays is the sum over k of left (r, k) · right (k, q). -/
theorem host4_apply (A : FVec Ideal S100000x128 .f32) (B : FVec Ideal S128x128 .f32) (r : Fin 100000) (q : Fin 128) :
    (Host.dotGeneral (F := Ideal) (φ₁ := .f32) (φ₂ := .f32) Cert.ReferenceIdeal.dot_S100000x128_S128x128_S100000x128_1_0_0_1_n_n none A B : FVec Ideal S100000x128 .f32) (ix2 r q)
      = ∑ k : Fin 128, A (ix2 r k) * B (ix2 k q) :=
  Cert.Lib.dotGeneral_plain_apply Cert.ReferenceIdeal.dot_S100000x128_S128x128_S100000x128_1_0_0_1_n_n whole4_rank whole4_size whole4_l0 whole4_l1 whole4_r0 whole4_r1
    none .single A B r q

/-- One entry of one block: when the left block `x0` holds the rows of `A` from row `n` on (`e0` sends a block index to the
    array index `n` rows further down, same column) and the right block `x1` holds `B` entry for entry, entry `j` of the body's
    result is entry `i` of the host's product of `A` and `B`, `i` being `j` moved `n` rows down. Both are the same sum. -/
theorem point4_eq (A : FVec Ideal S100000x128 .f32) (B : FVec Ideal S128x128 .f32)
    (x0 : Vec Ideal S2000x128 .f32) (x1 : Vec Ideal S128x128 .f32) (n : Nat)
    (e0 : S2000x128.Idx → S100000x128.Idx) (e1 : S128x128.Idx → S128x128.Idx) (i : S100000x128.Idx) (j : S2000x128.Idx)
    (hx0 : ∀ y, x0 y = A (e0 y)) (hx1 : ∀ y, x1 y = B (e1 y))
    (h00 : ∀ y, (e0 y 0).val = n + (y 0).val) (h01 : ∀ y, (e0 y 1).val = (y 1).val)
    (h10 : ∀ y, (e1 y 0).val = (y 0).val) (h11 : ∀ y, (e1 y 1).val = (y 1).val)
    (hi0 : (i 0).val = n + (j 0).val) (hi1 : (i 1).val = (j 1).val) :
    k4_pay1 x0 x1 j = (Host.dotGeneral (F := Ideal) (φ₁ := .f32) (φ₂ := .f32) Cert.ReferenceIdeal.dot_S100000x128_S128x128_S100000x128_1_0_0_1_n_n none A B : FVec Ideal S100000x128 .f32) i := by
  obtain ⟨p, q, rfl⟩ : ∃ (p : Fin 2000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [pay4_apply, host4_apply]
  refine Finset.sum_congr rfl fun k _ => ?_
  have ea : e0 (ix2 p k) = ix2 r k := funext fun a => Fin.ext (by
    match a with
    | ⟨0, _⟩ => exact (h00 _).trans hi0.symm
    | ⟨1, _⟩ => exact h01 _)
  have eb : e1 (ix2 k s) = ix2 k s := funext fun a => Fin.ext (by
    match a with
    | ⟨0, _⟩ => exact h10 _
    | ⟨1, _⟩ => exact h11 _)
  rw [hx0, hx1, ea, eb]

/-! ## From the 50 blocks to the array -/

theorem zero_offsets4 : (![0, 0] : Fin 2 → Nat) = fun _ => 0 := funext fun a => by fin_cases a <;> rfl

/-- Where the three windows sit at grid point `t` (decided over the 50 points): the left array's and the output's block is
    block `t` of rows, the right array's block is the whole array. -/
theorem blocks_at4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b)) (c : Dev nD)

/-- What grid point `t` writes back is block `t` of the host's product of the two arrays the region finds: rows
    2000 t … 2000 t + 1999, the left array read at the same rows, the right array whole. -/
theorem flushed4_eq (t : Fin cfg4.N) :
    (dat4 V c).flushed 2 t = ((cfg4.win 2).blk t).view.read (Elt Ideal)
      (Host.dotGeneral (F := Ideal) (φ₁ := .f32) (φ₂ := .f32) Cert.ReferenceIdeal.dot_S100000x128_S128x128_S100000x128_1_0_0_1_n_n none (V c main_v61) (V c main_arg6)) := by
  show (cfg4.win 2).cut (grid4.coords t) ((dat4 V c).after 2 t) = _
  rw [after4_2]
  unfold out4_2
  rw [View.canon_unit_zero zero_offsets4]
  simp only [View.ld_unit_zero (S := S2000x128) zero_offsets4, View.ld_unit_zero (S := S128x128) zero_offsets4]
  obtain ⟨a0, a1, b0, b1, o0, o1⟩ := blocks_at4 t
  funext j
  refine point4_eq (V c main_v61) (V c main_arg6) _ _ (t.val * 2000)
    (fun y => ((cfg4.win 0).blk t).view.emb y) (fun y => ((cfg4.win 1).blk t).view.emb y)
    (((cfg4.win 2).blk t).view.emb j) j (fun _ => rfl) (fun _ => rfl) ?_ ?_ ?_ ?_ ?_ ?_
  · intro y
    show win4_0.index t (0 : Fin 2) * 2000 + 1 * (y 0).val = t.val * 2000 + (y 0).val
    omega
  · intro y
    show win4_0.index t (1 : Fin 2) * 128 + 1 * (y 1).val = (y 1).val
    omega
  · intro y
    show win4_1.index t (0 : Fin 2) * 128 + 1 * (y 0).val = (y 0).val
    omega
  · intro y
    show win4_1.index t (1 : Fin 2) * 128 + 1 * (y 1).val = (y 1).val
    omega
  · show win4_2.index t (0 : Fin 2) * 2000 + 1 * (j 0).val = t.val * 2000 + (j 0).val
    omega
  · show win4_2.index t (1 : Fin 2) * 128 + 1 * (j 1).val = (j 1).val
    omega

/-- An index of the output array is in grid point `t`'s block iff each coordinate is in the block's range on its axis. -/
theorem mem_block4 (t : Fin cfg4.N) (i : S100000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v62).slice (win4_2.rect t)).set ↔ _
  rw [View.set_slice_whole, Rect.mem_set_unit]
  exact Iff.rfl

/-- Every row of the output is in some block: row `r` is in block `r / 2000`. -/
theorem covered4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 2000 < 50 := by omega
  obtain ⟨-, -, -, -, o0, o1⟩ := blocks_at4 ⟨(i 0).val / 2000, ht⟩
  have o0' : win4_2.index ⟨(i 0).val / 2000, ht⟩ (0 : Fin 2) = (i 0).val / 2000 := o0
  refine ⟨⟨(i 0).val / 2000, ht⟩, flush4_2 _, ?_⟩
  rw [mem_block4]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    omega
  | ⟨1, _⟩ =>
    show win4_2.index ⟨(i 0).val / 2000, ht⟩ (1 : Fin 2) * 128 ≤ (i 1).val
      ∧ (i 1).val < win4_2.index ⟨(i 0).val / 2000, ht⟩ (1 : Fin 2) * 128 + 128
    omega

/-- THE ARRAY after the region's 50 points: the host's product of the two arrays the region finds. -/
theorem arr4 :
    (dat4 V c).arrAt 2 cfg4.N
      = Host.dotGeneral (F := Ideal) (φ₁ := .f32) (φ₂ := .f32) Cert.ReferenceIdeal.dot_S100000x128_S128x128_S100000x128_1_0_0_1_n_n none (V c main_v61) (V c main_arg6) :=
  (dat4 V c).arrAt_eq_of_cover 2 _ (fun t _ => flushed4_eq V c t) (covered4)

end

end Cert.KernelIdeal.RegionValue

end
-- ==== Proof.RegionMatmul6.lean ====
/-
  Region 6 of the kernel is a row-blocked matrix product. The 100000 × 128 left array is cut into 50 blocks of 2000
  rows, the 128 × 64 right array is staged whole, and at every block the body multiplies the two: the narrowing of the
  factors is the identity on the extended reals, and the product into the zero accumulator is the plain sum over the
  contracted coordinate. This module proves that, after all 50 blocks, the 100000 × 64 output array is the host's product
  of the two input arrays as the region finds them: entry (r, q) of either side is the sum over k of
  left (r, k) · right (k, q).
-/
import proofs.«175226_j66958540144840_1_alg».proof.Proof.Gen.KernelIdeal.Frame
import proofs.«175226_j66958540144840_1_alg».proof.Proof.Gen.ReferenceIdeal
import proofs.«175226_j66958540144840_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open scoped BigOperators

/-! ## The two records of dimension numbers: rows of the left factor against columns of the right one -/

/-- The block product's record contracts one axis … -/
theorem blk6_rank : dot_S2000x128_S128x64_S2000x64_1_0_0_1_n_n.contr.rank = 1 := rfl
/-- … of extent 128. -/
theorem blk6_size : dot_S2000x128_S128x64_S2000x64_1_0_0_1_n_n.contr.size ⟨0, by rw [blk6_rank]; omega⟩ = 128 := rfl
/-- The left factor is read at (row of the output, contracted coordinate) … -/
theorem blk6_l0 : ∀ (i : S2000x64.Idx) (q : dot_S2000x128_S128x64_S2000x64_1_0_0_1_n_n.contr.Idx), (dot_S2000x128_S128x64_S2000x64_1_0_0_1_n_n.lhsIdx i q 0).val = (i 0).val := fun _ _ => rfl
theorem blk6_l1 : ∀ (i : S2000x64.Idx) (q : dot_S2000x128_S128x64_S2000x64_1_0_0_1_n_n.contr.Idx),
    (dot_S2000x128_S128x64_S2000x64_1_0_0_1_n_n.lhsIdx i q 1).val = (q ⟨0, by rw [blk6_rank]; omega⟩).val := fun _ _ => rfl
/-- … and the right factor at (contracted coordinate, column of the output). -/
theorem blk6_r0 : ∀ (i : S2000x64.Idx) (q : dot_S2000x128_S128x64_S2000x64_1_0_0_1_n_n.contr.Idx),
    (dot_S2000x128_S128x64_S2000x64_1_0_0_1_n_n.rhsIdx i q 0).val = (q ⟨0, by rw [blk6_rank]; omega⟩).val := fun _ _ => rfl
theorem blk6_r1 : ∀ (i : S2000x64.Idx) (q : dot_S2000x128_S128x64_S2000x64_1_0_0_1_n_n.contr.Idx), (dot_S2000x128_S128x64_S2000x64_1_0_0_1_n_n.rhsIdx i q 1).val = (i 1).val := fun _ _ => rfl

/-- The same four facts for the whole-array product's record. -/
theorem whole6_rank : Cert.ReferenceIdeal.dot_S100000x128_S128x64_S100000x64_1_0_0_1_n_n.contr.rank = 1 := rfl
theorem whole6_size : Cert.ReferenceIdeal.dot_S100000x128_S128x64_S100000x64_1_0_0_1_n_n.contr.size ⟨0, by rw [whole6_rank]; omega⟩ = 128 := rfl
theorem whole6_l0 : ∀ (i : S100000x64.Idx) (q : Cert.ReferenceIdeal.dot_S100000x128_S128x64_S100000x64_1_0_0_1_n_n.contr.Idx),
    (Cert.ReferenceIdeal.dot_S100000x128_S128x64_S100000x64_1_0_0_1_n_n.lhsIdx i q 0).val = (i 0).val := fun _ _ => rfl
theorem whole6_l1 : ∀ (i : S100000x64.Idx) (q : Cert.ReferenceIdeal.dot_S100000x128_S128x64_S100000x64_1_0_0_1_n_n.contr.Idx),
    (Cert.ReferenceIdeal.dot_S100000x128_S128x64_S100000x64_1_0_0_1_n_n.lhsIdx i q 1).val = (q ⟨0, by rw [whole6_rank]; omega⟩).val := fun _ _ => rfl
theorem whole6_r0 : ∀ (i : S100000x64.Idx) (q : Cert.ReferenceIdeal.dot_S100000x128_S128x64_S100000x64_1_0_0_1_n_n.contr.Idx),
    (Cert.ReferenceIdeal.dot_S100000x128_S128x64_S100000x64_1_0_0_1_n_n.rhsIdx i q 0).val = (q ⟨0, by rw [whole6_rank]; omega⟩).val := fun _ _ => rfl
theorem whole6_r1 : ∀ (i : S100000x64.Idx) (q : Cert.ReferenceIdeal.dot_S100000x128_S128x64_S100000x64_1_0_0_1_n_n.contr.Idx),
    (Cert.ReferenceIdeal.dot_S100000x128_S128x64_S100000x64_1_0_0_1_n_n.rhsIdx i q 1).val = (i 1).val := fun _ _ => rfl

/-! ## The body at an entry of a block -/

/-- Entry (p, q) of what the body stores is the sum over k of (block of the left array) (p, k) · (right array) (k, q). -/
theorem pay6_apply (x0 : Vec Ideal S2000x128 .f32) (x1 : Vec Ideal S128x64 .f32) (p : Fin 2000) (q : Fin 64) :
    k6_pay1 x0 x1 (ix2 p q) = ∑ k : Fin 128, x0 (ix2 p k) * x1 (ix2 k q) := by
  unfold k6_pay1
  rw [shapeCast_self]
  exact Cert.Lib.matmul_zero_apply dot_S2000x128_S128x64_S2000x64_1_0_0_1_n_n blk6_rank blk6_size blk6_l0 blk6_l1 blk6_r0 blk6_r1 _ _ p q

/-- Entry (r, q) of the host's product of the two whole arrays is the sum over k of left (r, k) · right (k, q). -/
theorem host6_apply (A : FVec Ideal S100000x128 .f32) (B : FVec Ideal S128x64 .f32) (r : Fin 100000) (q : Fin 64) :
    (Host.dotGeneral (F := Ideal) (φ₁ := .f32) (φ₂ := .f32) Cert.ReferenceIdeal.dot_S100000x128_S128x64_S100000x64_1_0_0_1_n_n none A B : FVec Ideal S100000x64 .f32) (ix2 r q)
      = ∑ k : Fin 128, A (ix2 r k) * B (ix2 k q) :=
  Cert.Lib.dotGeneral_plain_apply Cert.ReferenceIdeal.dot_S100000x128_S128x64_S100000x64_1_0_0_1_n_n whole6_rank whole6_size whole6_l0 whole6_l1 whole6_r0 whole6_r1
    none .single A B r q

/-- One entry of one block: when the left block `x0` holds the rows of `A` from row `n` on (`e0` sends a block index to the
    array index `n` rows further down, same column) and the right block `x1` holds `B` entry for entry, entry `j` of the body's
    result is entry `i` of the host's product of `A` and `B`, `i` being `j` moved `n` rows down. Both are the same sum. -/
theorem point6_eq (A : FVec Ideal S100000x128 .f32) (B : FVec Ideal S128x64 .f32)
    (x0 : Vec Ideal S2000x128 .f32) (x1 : Vec Ideal S128x64 .f32) (n : Nat)
    (e0 : S2000x128.Idx → S100000x128.Idx) (e1 : S128x64.Idx → S128x64.Idx) (i : S100000x64.Idx) (j : S2000x64.Idx)
    (hx0 : ∀ y, x0 y = A (e0 y)) (hx1 : ∀ y, x1 y = B (e1 y))
    (h00 : ∀ y, (e0 y 0).val = n + (y 0).val) (h01 : ∀ y, (e0 y 1).val = (y 1).val)
    (h10 : ∀ y, (e1 y 0).val = (y 0).val) (h11 : ∀ y, (e1 y 1).val = (y 1).val)
    (hi0 : (i 0).val = n + (j 0).val) (hi1 : (i 1).val = (j 1).val) :
    k6_pay1 x0 x1 j = (Host.dotGeneral (F := Ideal) (φ₁ := .f32) (φ₂ := .f32) Cert.ReferenceIdeal.dot_S100000x128_S128x64_S100000x64_1_0_0_1_n_n none A B : FVec Ideal S100000x64 .f32) i := by
  obtain ⟨p, q, rfl⟩ : ∃ (p : Fin 2000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [pay6_apply, host6_apply]
  refine Finset.sum_congr rfl fun k _ => ?_
  have ea : e0 (ix2 p k) = ix2 r k := funext fun a => Fin.ext (by
    match a with
    | ⟨0, _⟩ => exact (h00 _).trans hi0.symm
    | ⟨1, _⟩ => exact h01 _)
  have eb : e1 (ix2 k s) = ix2 k s := funext fun a => Fin.ext (by
    match a with
    | ⟨0, _⟩ => exact h10 _
    | ⟨1, _⟩ => exact h11 _)
  rw [hx0, hx1, ea, eb]

/-! ## From the 50 blocks to the array -/

theorem zero_offsets6 : (![0, 0] : Fin 2 → Nat) = fun _ => 0 := funext fun a => by fin_cases a <;> rfl

/-- Where the three windows sit at grid point `t` (decided over the 50 points): the left array's and the output's block is
    block `t` of rows, the right array's block is the whole array. -/
theorem blocks_at6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

section
variable (V : (c : Dev nD) → (b : Ref sig .tc) → Buf (Elt Ideal) ((c : Thread nD τ).loc b)) (c : Dev nD)

/-- What grid point `t` writes back is block `t` of the host's product of the two arrays the region finds: rows
    2000 t … 2000 t + 1999, the left array read at the same rows, the right array whole. -/
theorem flushed6_eq (t : Fin cfg6.N) :
    (dat6 V c).flushed 2 t = ((cfg6.win 2).blk t).view.read (Elt Ideal)
      (Host.dotGeneral (F := Ideal) (φ₁ := .f32) (φ₂ := .f32) Cert.ReferenceIdeal.dot_S100000x128_S128x64_S100000x64_1_0_0_1_n_n none (V c main_v77) (V c main_arg8)) := by
  show (cfg6.win 2).cut (grid6.coords t) ((dat6 V c).after 2 t) = _
  rw [after6_2]
  unfold out6_2
  rw [View.canon_unit_zero zero_offsets6]
  simp only [View.ld_unit_zero (S := S2000x128) zero_offsets6, View.ld_unit_zero (S := S128x64) zero_offsets6]
  obtain ⟨a0, a1, b0, b1, o0, o1⟩ := blocks_at6 t
  funext j
  refine point6_eq (V c main_v77) (V c main_arg8) _ _ (t.val * 2000)
    (fun y => ((cfg6.win 0).blk t).view.emb y) (fun y => ((cfg6.win 1).blk t).view.emb y)
    (((cfg6.win 2).blk t).view.emb j) j (fun _ => rfl) (fun _ => rfl) ?_ ?_ ?_ ?_ ?_ ?_
  · intro y
    show win6_0.index t (0 : Fin 2) * 2000 + 1 * (y 0).val = t.val * 2000 + (y 0).val
    omega
  · intro y
    show win6_0.index t (1 : Fin 2) * 128 + 1 * (y 1).val = (y 1).val
    omega
  · intro y
    show win6_1.index t (0 : Fin 2) * 128 + 1 * (y 0).val = (y 0).val
    omega
  · intro y
    show win6_1.index t (1 : Fin 2) * 64 + 1 * (y 1).val = (y 1).val
    omega
  · show win6_2.index t (0 : Fin 2) * 2000 + 1 * (j 0).val = t.val * 2000 + (j 0).val
    omega
  · show win6_2.index t (1 : Fin 2) * 64 + 1 * (j 1).val = (j 1).val
    omega

/-- An index of the output array is in grid point `t`'s block iff each coordinate is in the block's range on its axis. -/
theorem mem_block6 (t : Fin cfg6.N) (i : S100000x64.Idx) :
    i ∈ ((cfg6.win 2).blk t).view.set ↔ ∀ a : Fin 2, win6_2.index t a * S2000x64.size a ≤ (i a).val
      ∧ (i a).val < win6_2.index t a * S2000x64.size a + S2000x64.size a := by
  show i ∈ ((View.whole main_v78).slice (win6_2.rect t)).set ↔ _
  rw [View.set_slice_whole, Rect.mem_set_unit]
  exact Iff.rfl

/-- Every row of the output is in some block: row `r` is in block `r / 2000`. -/
theorem covered6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have ht : (i 0).val / 2000 < 50 := by omega
  obtain ⟨-, -, -, -, o0, o1⟩ := blocks_at6 ⟨(i 0).val / 2000, ht⟩
  have o0' : win6_2.index ⟨(i 0).val / 2000, ht⟩ (0 : Fin 2) = (i 0).val / 2000 := o0
  refine ⟨⟨(i 0).val / 2000, ht⟩, flush6_2 _, ?_⟩
  rw [mem_block6]
  intro a
  match a with
  | ⟨0, _⟩ =>
    show win6_2.index ⟨(i 0).val / 2000, ht⟩ (0 : Fin 2) * 2000 ≤ (i 0).val
      ∧ (i 0).val < win6_2.index ⟨(i 0).val / 2000, ht⟩ (0 : Fin 2) * 2000 + 2000
    omega
  | ⟨1, _⟩ =>
    show win6_2.index ⟨(i 0).val / 2000, ht⟩ (1 : Fin 2) * 64 ≤ (i 1).val
      ∧ (i 1).val < win6_2.index ⟨(i 0).val / 2000, ht⟩ (1 : Fin 2) * 64 + 64
    omega

/-- THE ARRAY after the region's 50 points: the host's product of the two arrays the region finds. -/
theorem arr6 :
    (dat6 V c).arrAt 2 cfg6.N
      = Host.dotGeneral (F := Ideal) (φ₁ := .f32) (φ₂ := .f32) Cert.ReferenceIdeal.dot_S100000x128_S128x64_S100000x64_1_0_0_1_n_n none (V c main_v77) (V c main_arg8) :=
  (dat6 V c).arrAt_eq_of_cover 2 _ (fun t _ => flushed6_eq V c t) (covered6)

end

end Cert.KernelIdeal.RegionValue

end
-- ==== Proof.RegionBias1.lean ====
import proofs.«175226_j66958540144840_1_alg».proof.Proof.Gen.KernelIdeal.Frame
import proofs.«175226_j66958540144840_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-! Region 1: every row of a [100000, 128] array gets the one row of a [1, 128] array added, then the maximum with
zero, 2000 rows at a time over 50 grid points. The array the region leaves is that operation applied to the two whole
input arrays: each point writes the rows [2000 t, 2000 t + 2000) of it, and the 50 row blocks tile the 100000 rows. -/

/-- The whole-array side: the one bias row added to every row, then the maximum with zero. -/
abbrev biasRelu1_whole (X : FVec Ideal S100000x128 .f32) (B : FVec Ideal S1x128 .f32) : FVec Ideal S100000x128 .f32 :=
  maximumf (addf X (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128 (constant (F := Ideal) Cert.ReferenceIdeal.S_ .f32 0x00000000#32))

/-- The whole-array side at row r, column q: entry (r, q) plus the bias row's entry (0, q), against zero. The row
broadcast reads coordinate 0 on the operand's unit axis and the column on the other; the scalar broadcast reads its
one entry. -/
theorem biasRelu1_whole_at (X : FVec Ideal S100000x128 .f32) (B : FVec Ideal S1x128 .f32) (r : Fin 100000) (q : Fin 128) :
    biasRelu1_whole X B (ix2 r q) = max (X (ix2 r q) + B (ix2 (0 : Fin 1) q)) (Ideal.ofBits .f32 0x00000000#32) := by
  have hB : broadcastInDim Cert.ReferenceIdeal.S100000x128 ![0, 1] Cert.ReferenceIdeal.Facts₀.bcast_S1x128_S100000x128_0_1 B (ix2 r q) = B (ix2 (0 : Fin 1) q) :=
    broadcastInDim_apply _ _ B (ix2 r q) (ix2 (0 : Fin 1) q) fun a => by
      match a with
      | ⟨0, _⟩ => rfl
      | ⟨1, _⟩ => rfl
  show max (X (ix2 r q) + broadcastInDim Cert.ReferenceIdeal.S100000x128 ![0, 1] Cert.ReferenceIdeal.Facts₀.bcast_S1x128_S100000x128_0_1 B (ix2 r q)) _ = _
  rw [hB]
  rfl

/-- One block's side at row p, column q of the block: the same-shape casts are the identity, the row broadcast reads
the one row at column q, the scalar broadcast its scalar. -/
theorem biasRelu1_pay_at (x0 : FVec Ideal S2000x128 .f32) (x1 : FVec Ideal S1x128 .f32) (p : Fin 2000) (q : Fin 128) :
    k1_pay1 x0 x1 (ix2 p q) = max (x0 (ix2 p q) + x1 (ix2 (0 : Fin 1) q)) (Ideal.ofBits .f32 0x00000000#32) := by
  unfold k1_pay1
  rw [shapeCast_self, shapeCast_self, maximumf_apply, addf_apply, broadcast_apply, broadcastTo_1b_ab_apply]
  rfl

theorem biasRelu1_zeroOffsets : (![0, 0] : Fin 2 → Nat) = fun _ => 0 := funext fun a => by fin_cases a <;> rfl

theorem biasRelu1_points : cfg1.N = 50 := by decide

/-- The block indices over the 50 points: the two row-blocked windows sit at block row t, block column 0; the bias
window always at block (0, 0). -/
theorem biasRelu1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input window's block at point t, entry (p, q), is the input array's entry (2000 t + p, q). -/
theorem biasRelu1_blk0_at (V : (c : Dev nD) → (b : Ref sig .tc) → Buf (Elt Ideal) ((c : Thread nD τ).loc b)) (c : Dev nD)
    (t : Fin cfg1.N) (p : Fin 2000) (q : Fin 128) (r : Fin 100000) (hr : r.val = 2000 * t.val + p.val) :
    (iblk1 V c 0 t : FVec Ideal S2000x128 .f32) (ix2 p q) = (V c main_v43 : FVec Ideal S100000x128 .f32) (ix2 r q) := by
  obtain ⟨e0, e1, -, -, -, -⟩ := biasRelu1_idx t
  unfold iblk1
  rw [View.read_apply]
  show V c main_v43 _ = V c main_v43 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * q.val = q.val; rw [e1]; omega

/-- The bias window's block at any point is the whole [1, 128] array. -/
theorem biasRelu1_blk1_at (V : (c : Dev nD) → (b : Ref sig .tc) → Buf (Elt Ideal) ((c : Thread nD τ).loc b)) (c : Dev nD)
    (t : Fin cfg1.N) (q : Fin 128) :
    (iblk1 V c 1 t : FVec Ideal S1x128 .f32) (ix2 (0 : Fin 1) q) = (V c main_v44 : FVec Ideal S1x128 .f32) (ix2 (0 : Fin 1) q) := by
  obtain ⟨-, -, e2, e3, -, -⟩ := biasRelu1_idx t
  unfold iblk1
  rw [View.read_apply]
  show V c main_v44 _ = V c main_v44 _
  congr 1
  funext a
  apply Fin.ext
  match a with
  | ⟨0, _⟩ => show win1_1.index t (0 : Fin 2) * 1 + 1 * 0 = 0; rw [e2]
  | ⟨1, _⟩ => show win1_1.index t (1 : Fin 2) * 128 + 1 * q.val = q.val; rw [e3]; omega

/-- The output window's block at point t sits at rows 2000 t + p, column q of the output array. -/
theorem biasRelu1_emb2 (t : Fin cfg1.N) (p : Fin 2000) (q : Fin 128) (r : Fin 100000) (hr : r.val = 2000 * t.val + p.val) :
    ((cfg1.win 2).blk t).view.emb (ix2 p q) = (ix2 r q : S100000x128.Idx) := by
  obtain ⟨-, -, -, -, e4, e5⟩ := biasRelu1_idx t
  funext a
  apply Fin.ext
  match a with
  | ⟨0, _⟩ => show win1_2.index t (0 : Fin 2) * 2000 + 1 * p.val = r.val; rw [e4, hr]; omega
  | ⟨1, _⟩ => show win1_2.index t (1 : Fin 2) * 128 + 1 * q.val = q.val; rw [e5]; omega

/-- At an entry of the block: what the body computes from the two input blocks at point t is the whole-array side at
the array index under that entry. -/
theorem biasRelu1_point (V : (c : Dev nD) → (b : Ref sig .tc) → Buf (Elt Ideal) ((c : Thread nD τ).loc b)) (c : Dev nD)
    (t : Fin cfg1.N) (j : S2000x128.Idx) :
    k1_pay1 (iblk1 V c 0 t) (iblk1 V c 1 t) j
      = biasRelu1_whole (V c main_v43) (V c main_v44) (((cfg1.win 2).blk t).view.emb j) := by
  obtain ⟨p, q, rfl⟩ : ∃ (p : Fin 2000) (q : Fin 128), j = ix2 p q := ⟨j 0, j 1, eq_ix2 j⟩
  have hr : 2000 * t.val + p.val < 100000 := by
    have ht : t.val < cfg1.N := t.isLt
    have hN : cfg1.N = 50 := biasRelu1_points
    omega
  rw [biasRelu1_emb2 t p q ⟨2000 * t.val + p.val, hr⟩ rfl, biasRelu1_whole_at,
    ← biasRelu1_blk0_at V c t p q ⟨2000 * t.val + p.val, hr⟩ rfl, ← biasRelu1_blk1_at V c t q]
  exact biasRelu1_pay_at _ _ p q

/-- What point t writes back is block t of the whole-array side of the two input arrays as the region finds them. -/
theorem biasRelu1_flushed (V : (c : Dev nD) → (b : Ref sig .tc) → Buf (Elt Ideal) ((c : Thread nD τ).loc b)) (c : Dev nD)
    (t : Fin cfg1.N) :
    (dat1 V c).flushed 2 t
      = ((cfg1.win 2).blk t).view.read (Elt Ideal) (biasRelu1_whole (V c main_v43) (V c main_v44)) := by
  show (cfg1.win 2).cut (grid1.coords t) ((dat1 V c).after 2 t) = _
  rw [after1_2]
  unfold out1_2
  rw [View.canon_unit_zero biasRelu1_zeroOffsets]
  simp only [View.ld_unit_zero (S := S2000x128) biasRelu1_zeroOffsets, View.ld_unit_zero (S := S1x128) biasRelu1_zeroOffsets]
  funext j
  exact biasRelu1_point V c t j

/-- An index of the output array is in point t's block iff each coordinate is in the block's range on its axis. -/
theorem biasRelu1_mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The 50 row blocks cover the 100000 rows: row r is in the block of point r / 2000. -/
theorem biasRelu1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 2000 < cfg1.N := by rw [biasRelu1_points]; omega
  obtain ⟨-, -, -, -, e4, e5⟩ := biasRelu1_idx ⟨(i 0).val / 2000, hlt⟩
  refine ⟨⟨(i 0).val / 2000, hlt⟩, flush1_2 _, ?_⟩
  rw [biasRelu1_mem_blk]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, hlt⟩ (1 : Fin 2) * 128 ≤ (i 1).val ∧ (i 1).val < win1_2.index ⟨(i 0).val / 2000, hlt⟩ (1 : Fin 2) * 128 + 128
    rw [e5]
    omega

/-- The array region 1 leaves: the bias row added to every row of the input array, then the maximum with zero. -/
theorem arr1 (V : (c : Dev nD) → (b : Ref sig .tc) → Buf (Elt Ideal) ((c : Thread nD τ).loc b)) (c : Dev nD) :
    (dat1 V c).arrAt 2 cfg1.N
      = maximumf (addf (V c main_v43) (broadcastInDim Cert.ReferenceIdeal.S100000x128 ![0, 1] Cert.ReferenceIdeal.Facts₀.bcast_S1x128_S100000x128_0_1 (V c main_v44)))
          (broadcastInDim Cert.ReferenceIdeal.S100000x128 ![] Cert.ReferenceIdeal.Facts₀.bcast_S_S100000x128 (constant (F := Ideal) Cert.ReferenceIdeal.S_ .f32 0x00000000#32)) :=
  (dat1 V c).arrAt_eq_of_cover 2 (biasRelu1_whole (V c main_v43) (V c main_v44)) (fun t _ => biasRelu1_flushed V c t) biasRelu1_cover

end Cert.KernelIdeal.RegionValue

end
-- ==== Proof.RegionBias3.lean ====
import proofs.«175226_j66958540144840_1_alg».proof.Proof.Gen.KernelIdeal.Frame
import proofs.«175226_j66958540144840_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-! Region 3: every row of a [100000, 128] array gets the one row of a [1, 128] array added, then the maximum with
zero, 2000 rows at a time over 50 grid points. The array the region leaves is that operation applied to the two whole
input arrays: each point writes the rows [2000 t, 2000 t + 2000) of it, and the 50 row blocks tile the 100000 rows. -/

/-- The whole-array side: the one bias row added to every row, then the maximum with zero. -/
abbrev biasRelu3_whole (X : FVec Ideal S100000x128 .f32) (B : FVec Ideal S1x128 .f32) : FVec Ideal S100000x128 .f32 :=
  maximumf (addf X (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128 (constant (F := Ideal) Cert.ReferenceIdeal.S_ .f32 0x00000000#32))

/-- The whole-array side at row r, column q: entry (r, q) plus the bias row's entry (0, q), against zero. The row
broadcast reads coordinate 0 on the operand's unit axis and the column on the other; the scalar broadcast reads its
one entry. -/
theorem biasRelu3_whole_at (X : FVec Ideal S100000x128 .f32) (B : FVec Ideal S1x128 .f32) (r : Fin 100000) (q : Fin 128) :
    biasRelu3_whole X B (ix2 r q) = max (X (ix2 r q) + B (ix2 (0 : Fin 1) q)) (Ideal.ofBits .f32 0x00000000#32) := by
  have hB : broadcastInDim Cert.ReferenceIdeal.S100000x128 ![0, 1] Cert.ReferenceIdeal.Facts₀.bcast_S1x128_S100000x128_0_1 B (ix2 r q) = B (ix2 (0 : Fin 1) q) :=
    broadcastInDim_apply _ _ B (ix2 r q) (ix2 (0 : Fin 1) q) fun a => by
      match a with
      | ⟨0, _⟩ => rfl
      | ⟨1, _⟩ => rfl
  show max (X (ix2 r q) + broadcastInDim Cert.ReferenceIdeal.S100000x128 ![0, 1] Cert.ReferenceIdeal.Facts₀.bcast_S1x128_S100000x128_0_1 B (ix2 r q)) _ = _
  rw [hB]
  rfl

/-- One block's side at row p, column q of the block: the same-shape casts are the identity, the row broadcast reads
the one row at column q, the scalar broadcast its scalar. -/
theorem biasRelu3_pay_at (x0 : FVec Ideal S2000x128 .f32) (x1 : FVec Ideal S1x128 .f32) (p : Fin 2000) (q : Fin 128) :
    k3_pay1 x0 x1 (ix2 p q) = max (x0 (ix2 p q) + x1 (ix2 (0 : Fin 1) q)) (Ideal.ofBits .f32 0x00000000#32) := by
  unfold k3_pay1
  rw [shapeCast_self, shapeCast_self, maximumf_apply, addf_apply, broadcast_apply, broadcastTo_1b_ab_apply]
  rfl

theorem biasRelu3_zeroOffsets : (![0, 0] : Fin 2 → Nat) = fun _ => 0 := funext fun a => by fin_cases a <;> rfl

theorem biasRelu3_points : cfg3.N = 50 := by decide

/-- The block indices over the 50 points: the two row-blocked windows sit at block row t, block column 0; the bias
window always at block (0, 0). -/
theorem biasRelu3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input window's block at point t, entry (p, q), is the input array's entry (2000 t + p, q). -/
theorem biasRelu3_blk0_at (V : (c : Dev nD) → (b : Ref sig .tc) → Buf (Elt Ideal) ((c : Thread nD τ).loc b)) (c : Dev nD)
    (t : Fin cfg3.N) (p : Fin 2000) (q : Fin 128) (r : Fin 100000) (hr : r.val = 2000 * t.val + p.val) :
    (iblk3 V c 0 t : FVec Ideal S2000x128 .f32) (ix2 p q) = (V c main_v59 : FVec Ideal S100000x128 .f32) (ix2 r q) := by
  obtain ⟨e0, e1, -, -, -, -⟩ := biasRelu3_idx t
  unfold iblk3
  rw [View.read_apply]
  show V c main_v59 _ = V c main_v59 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 128 + 1 * q.val = q.val; rw [e1]; omega

/-- The bias window's block at any point is the whole [1, 128] array. -/
theorem biasRelu3_blk1_at (V : (c : Dev nD) → (b : Ref sig .tc) → Buf (Elt Ideal) ((c : Thread nD τ).loc b)) (c : Dev nD)
    (t : Fin cfg3.N) (q : Fin 128) :
    (iblk3 V c 1 t : FVec Ideal S1x128 .f32) (ix2 (0 : Fin 1) q) = (V c main_v60 : FVec Ideal S1x128 .f32) (ix2 (0 : Fin 1) q) := by
  obtain ⟨-, -, e2, e3, -, -⟩ := biasRelu3_idx t
  unfold iblk3
  rw [View.read_apply]
  show V c main_v60 _ = V c main_v60 _
  congr 1
  funext a
  apply Fin.ext
  match a with
  | ⟨0, _⟩ => show win3_1.index t (0 : Fin 2) * 1 + 1 * 0 = 0; rw [e2]
  | ⟨1, _⟩ => show win3_1.index t (1 : Fin 2) * 128 + 1 * q.val = q.val; rw [e3]; omega

/-- The output window's block at point t sits at rows 2000 t + p, column q of the output array. -/
theorem biasRelu3_emb2 (t : Fin cfg3.N) (p : Fin 2000) (q : Fin 128) (r : Fin 100000) (hr : r.val = 2000 * t.val + p.val) :
    ((cfg3.win 2).blk t).view.emb (ix2 p q) = (ix2 r q : S100000x128.Idx) := by
  obtain ⟨-, -, -, -, e4, e5⟩ := biasRelu3_idx t
  funext a
  apply Fin.ext
  match a with
  | ⟨0, _⟩ => show win3_2.index t (0 : Fin 2) * 2000 + 1 * p.val = r.val; rw [e4, hr]; omega
  | ⟨1, _⟩ => show win3_2.index t (1 : Fin 2) * 128 + 1 * q.val = q.val; rw [e5]; omega

/-- At an entry of the block: what the body computes from the two input blocks at point t is the whole-array side at
the array index under that entry. -/
theorem biasRelu3_point (V : (c : Dev nD) → (b : Ref sig .tc) → Buf (Elt Ideal) ((c : Thread nD τ).loc b)) (c : Dev nD)
    (t : Fin cfg3.N) (j : S2000x128.Idx) :
    k3_pay1 (iblk3 V c 0 t) (iblk3 V c 1 t) j
      = biasRelu3_whole (V c main_v59) (V c main_v60) (((cfg3.win 2).blk t).view.emb j) := by
  obtain ⟨p, q, rfl⟩ : ∃ (p : Fin 2000) (q : Fin 128), j = ix2 p q := ⟨j 0, j 1, eq_ix2 j⟩
  have hr : 2000 * t.val + p.val < 100000 := by
    have ht : t.val < cfg3.N := t.isLt
    have hN : cfg3.N = 50 := biasRelu3_points
    omega
  rw [biasRelu3_emb2 t p q ⟨2000 * t.val + p.val, hr⟩ rfl, biasRelu3_whole_at,
    ← biasRelu3_blk0_at V c t p q ⟨2000 * t.val + p.val, hr⟩ rfl, ← biasRelu3_blk1_at V c t q]
  exact biasRelu3_pay_at _ _ p q

/-- What point t writes back is block t of the whole-array side of the two input arrays as the region finds them. -/
theorem biasRelu3_flushed (V : (c : Dev nD) → (b : Ref sig .tc) → Buf (Elt Ideal) ((c : Thread nD τ).loc b)) (c : Dev nD)
    (t : Fin cfg3.N) :
    (dat3 V c).flushed 2 t
      = ((cfg3.win 2).blk t).view.read (Elt Ideal) (biasRelu3_whole (V c main_v59) (V c main_v60)) := by
  show (cfg3.win 2).cut (grid3.coords t) ((dat3 V c).after 2 t) = _
  rw [after3_2]
  unfold out3_2
  rw [View.canon_unit_zero biasRelu3_zeroOffsets]
  simp only [View.ld_unit_zero (S := S2000x128) biasRelu3_zeroOffsets, View.ld_unit_zero (S := S1x128) biasRelu3_zeroOffsets]
  funext j
  exact biasRelu3_point V c t j

/-- An index of the output array is in point t's block iff each coordinate is in the block's range on its axis. -/
theorem biasRelu3_mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v61).slice (win3_2.rect t)).set ↔ _
  rw [View.set_slice_whole, Rect.mem_set_unit]
  exact Iff.rfl

/-- The 50 row blocks cover the 100000 rows: row r is in the block of point r / 2000. -/
theorem biasRelu3_cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 2000 < cfg3.N := by rw [biasRelu3_points]; omega
  obtain ⟨-, -, -, -, e4, e5⟩ := biasRelu3_idx ⟨(i 0).val / 2000, hlt⟩
  refine ⟨⟨(i 0).val / 2000, hlt⟩, flush3_2 _, ?_⟩
  rw [biasRelu3_mem_blk]
  intro a
  match a with
  | ⟨0, _⟩ =>
    show win3_2.index ⟨(i 0).val / 2000, hlt⟩ (0 : Fin 2) * 2000 ≤ (i 0).val ∧ (i 0).val < win3_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, hlt⟩ (1 : Fin 2) * 128 ≤ (i 1).val ∧ (i 1).val < win3_2.index ⟨(i 0).val / 2000, hlt⟩ (1 : Fin 2) * 128 + 128
    rw [e5]
    omega

/-- The array region 3 leaves: the bias row added to every row of the input array, then the maximum with zero. -/
theorem arr3 (V : (c : Dev nD) → (b : Ref sig .tc) → Buf (Elt Ideal) ((c : Thread nD τ).loc b)) (c : Dev nD) :
    (dat3 V c).arrAt 2 cfg3.N
      = maximumf (addf (V c main_v59) (broadcastInDim Cert.ReferenceIdeal.S100000x128 ![0, 1] Cert.ReferenceIdeal.Facts₀.bcast_S1x128_S100000x128_0_1 (V c main_v60)))
          (broadcastInDim Cert.ReferenceIdeal.S100000x128 ![] Cert.ReferenceIdeal.Facts₀.bcast_S_S100000x128 (constant (F := Ideal) Cert.ReferenceIdeal.S_ .f32 0x00000000#32)) :=
  (dat3 V c).arrAt_eq_of_cover 2 (biasRelu3_whole (V c main_v59) (V c main_v60)) (fun t _ => biasRelu3_flushed V c t) biasRelu3_cover

end Cert.KernelIdeal.RegionValue

end
-- ==== Proof.RegionBias5.lean ====
import proofs.«175226_j66958540144840_1_alg».proof.Proof.Gen.KernelIdeal.Frame
import proofs.«175226_j66958540144840_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-! Region 5: every row of a [100000, 128] array gets the one row of a [1, 128] array added, then the maximum with
zero, 2000 rows at a time over 50 grid points. The array the region leaves is that operation applied to the two whole
input arrays: each point writes the rows [2000 t, 2000 t + 2000) of it, and the 50 row blocks tile the 100000 rows. -/

/-- The whole-array side: the one bias row added to every row, then the maximum with zero. -/
abbrev biasRelu5_whole (X : FVec Ideal S100000x128 .f32) (B : FVec Ideal S1x128 .f32) : FVec Ideal S100000x128 .f32 :=
  maximumf (addf X (broadcastInDim Cert.ReferenceIdeal.S100000x128 ![0, 1] Cert.ReferenceIdeal.Facts₀.bcast_S1x128_S100000x128_0_1 B))
    (broadcastInDim Cert.ReferenceIdeal.S100000x128 ![] Cert.ReferenceIdeal.Facts₀.bcast_S_S100000x128 (constant (F := Ideal) Cert.ReferenceIdeal.S_ .f32 0x00000000#32))

/-- The whole-array side at row r, column q: entry (r, q) plus the bias row's entry (0, q), against zero. The row
broadcast reads coordinate 0 on the operand's unit axis and the column on the other; the scalar broadcast reads its
one entry. -/
theorem biasRelu5_whole_at (X : FVec Ideal S100000x128 .f32) (B : FVec Ideal S1x128 .f32) (r : Fin 100000) (q : Fin 128) :
    biasRelu5_whole X B (ix2 r q) = max (X (ix2 r q) + B (ix2 (0 : Fin 1) q)) (Ideal.ofBits .f32 0x00000000#32) := by
  have hB : broadcastInDim Cert.ReferenceIdeal.S100000x128 ![0, 1] Cert.ReferenceIdeal.Facts₀.bcast_S1x128_S100000x128_0_1 B (ix2 r q) = B (ix2 (0 : Fin 1) q) :=
    broadcastInDim_apply _ _ B (ix2 r q) (ix2 (0 : Fin 1) q) fun a => by
      match a with
      | ⟨0, _⟩ => rfl
      | ⟨1, _⟩ => rfl
  show max (X (ix2 r q) + broadcastInDim Cert.ReferenceIdeal.S100000x128 ![0, 1] Cert.ReferenceIdeal.Facts₀.bcast_S1x128_S100000x128_0_1 B (ix2 r q)) _ = _
  rw [hB]
  rfl

/-- One block's side at row p, column q of the block: the same-shape casts are the identity, the row broadcast reads
the one row at column q, the scalar broadcast its scalar. -/
theorem biasRelu5_pay_at (x0 : FVec Ideal S2000x128 .f32) (x1 : FVec Ideal S1x128 .f32) (p : Fin 2000) (q : Fin 128) :
    k5_pay1 x0 x1 (ix2 p q) = max (x0 (ix2 p q) + x1 (ix2 (0 : Fin 1) q)) (Ideal.ofBits .f32 0x00000000#32) := by
  unfold k5_pay1
  rw [shapeCast_self, shapeCast_self, maximumf_apply, addf_apply, broadcast_apply, broadcastTo_1b_ab_apply]
  rfl

theorem biasRelu5_zeroOffsets : (![0, 0] : Fin 2 → Nat) = fun _ => 0 := funext fun a => by fin_cases a <;> rfl

theorem biasRelu5_points : cfg5.N = 50 := by decide

/-- The block indices over the 50 points: the two row-blocked windows sit at block row t, block column 0; the bias
window always at block (0, 0). -/
theorem biasRelu5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The input window's block at point t, entry (p, q), is the input array's entry (2000 t + p, q). -/
theorem biasRelu5_blk0_at (V : (c : Dev nD) → (b : Ref sig .tc) → Buf (Elt Ideal) ((c : Thread nD τ).loc b)) (c : Dev nD)
    (t : Fin cfg5.N) (p : Fin 2000) (q : Fin 128) (r : Fin 100000) (hr : r.val = 2000 * t.val + p.val) :
    (iblk5 V c 0 t : FVec Ideal S2000x128 .f32) (ix2 p q) = (V c main_v75 : FVec Ideal S100000x128 .f32) (ix2 r q) := by
  obtain ⟨e0, e1, -, -, -, -⟩ := biasRelu5_idx t
  unfold iblk5
  rw [View.read_apply]
  show V c main_v75 _ = V c main_v75 _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 128 + 1 * q.val = q.val; rw [e1]; omega

/-- The bias window's block at any point is the whole [1, 128] array. -/
theorem biasRelu5_blk1_at (V : (c : Dev nD) → (b : Ref sig .tc) → Buf (Elt Ideal) ((c : Thread nD τ).loc b)) (c : Dev nD)
    (t : Fin cfg5.N) (q : Fin 128) :
    (iblk5 V c 1 t : FVec Ideal S1x128 .f32) (ix2 (0 : Fin 1) q) = (V c main_v76 : FVec Ideal S1x128 .f32) (ix2 (0 : Fin 1) q) := by
  obtain ⟨-, -, e2, e3, -, -⟩ := biasRelu5_idx t
  unfold iblk5
  rw [View.read_apply]
  show V c main_v76 _ = V c main_v76 _
  congr 1
  funext a
  apply Fin.ext
  match a with
  | ⟨0, _⟩ => show win5_1.index t (0 : Fin 2) * 1 + 1 * 0 = 0; rw [e2]
  | ⟨1, _⟩ => show win5_1.index t (1 : Fin 2) * 128 + 1 * q.val = q.val; rw [e3]; omega

/-- The output window's block at point t sits at rows 2000 t + p, column q of the output array. -/
theorem biasRelu5_emb2 (t : Fin cfg5.N) (p : Fin 2000) (q : Fin 128) (r : Fin 100000) (hr : r.val = 2000 * t.val + p.val) :
    ((cfg5.win 2).blk t).view.emb (ix2 p q) = (ix2 r q : S100000x128.Idx) := by
  obtain ⟨-, -, -, -, e4, e5⟩ := biasRelu5_idx t
  funext a
  apply Fin.ext
  match a with
  | ⟨0, _⟩ => show win5_2.index t (0 : Fin 2) * 2000 + 1 * p.val = r.val; rw [e4, hr]; omega
  | ⟨1, _⟩ => show win5_2.index t (1 : Fin 2) * 128 + 1 * q.val = q.val; rw [e5]; omega

/-- At an entry of the block: what the body computes from the two input blocks at point t is the whole-array side at
the array index under that entry. -/
theorem biasRelu5_point (V : (c : Dev nD) → (b : Ref sig .tc) → Buf (Elt Ideal) ((c : Thread nD τ).loc b)) (c : Dev nD)
    (t : Fin cfg5.N) (j : S2000x128.Idx) :
    k5_pay1 (iblk5 V c 0 t) (iblk5 V c 1 t) j
      = biasRelu5_whole (V c main_v75) (V c main_v76) (((cfg5.win 2).blk t).view.emb j) := by
  obtain ⟨p, q, rfl⟩ : ∃ (p : Fin 2000) (q : Fin 128), j = ix2 p q := ⟨j 0, j 1, eq_ix2 j⟩
  have hr : 2000 * t.val + p.val < 100000 := by
    have ht : t.val < cfg5.N := t.isLt
    have hN : cfg5.N = 50 := biasRelu5_points
    omega
  rw [biasRelu5_emb2 t p q ⟨2000 * t.val + p.val, hr⟩ rfl, biasRelu5_whole_at,
    ← biasRelu5_blk0_at V c t p q ⟨2000 * t.val + p.val, hr⟩ rfl, ← biasRelu5_blk1_at V c t q]
  exact biasRelu5_pay_at _ _ p q

/-- What point t writes back is block t of the whole-array side of the two input arrays as the region finds them. -/
theorem biasRelu5_flushed (V : (c : Dev nD) → (b : Ref sig .tc) → Buf (Elt Ideal) ((c : Thread nD τ).loc b)) (c : Dev nD)
    (t : Fin cfg5.N) :
    (dat5 V c).flushed 2 t
      = ((cfg5.win 2).blk t).view.read (Elt Ideal) (biasRelu5_whole (V c main_v75) (V c main_v76)) := by
  show (cfg5.win 2).cut (grid5.coords t) ((dat5 V c).after 2 t) = _
  rw [after5_2]
  unfold out5_2
  rw [View.canon_unit_zero biasRelu5_zeroOffsets]
  simp only [View.ld_unit_zero (S := S2000x128) biasRelu5_zeroOffsets, View.ld_unit_zero (S := S1x128) biasRelu5_zeroOffsets]
  funext j
  exact biasRelu5_point V c t j

/-- An index of the output array is in point t's block iff each coordinate is in the block's range on its axis. -/
theorem biasRelu5_mem_blk (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v77).slice (win5_2.rect t)).set ↔ _
  rw [View.set_slice_whole, Rect.mem_set_unit]
  exact Iff.rfl

/-- The 50 row blocks cover the 100000 rows: row r is in the block of point r / 2000. -/
theorem biasRelu5_cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hlt : (i 0).val / 2000 < cfg5.N := by rw [biasRelu5_points]; omega
  obtain ⟨-, -, -, -, e4, e5⟩ := biasRelu5_idx ⟨(i 0).val / 2000, hlt⟩
  refine ⟨⟨(i 0).val / 2000, hlt⟩, flush5_2 _, ?_⟩
  rw [biasRelu5_mem_blk]
  intro a
  match a with
  | ⟨0, _⟩ =>
    show win5_2.index ⟨(i 0).val / 2000, hlt⟩ (0 : Fin 2) * 2000 ≤ (i 0).val ∧ (i 0).val < win5_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win5_2.index ⟨(i 0).val / 2000, hlt⟩ (1 : Fin 2) * 128 ≤ (i 1).val ∧ (i 1).val < win5_2.index ⟨(i 0).val / 2000, hlt⟩ (1 : Fin 2) * 128 + 128
    rw [e5]
    omega

/-- The array region 5 leaves: the bias row added to every row of the input array, then the maximum with zero. -/
theorem arr5 (V : (c : Dev nD) → (b : Ref sig .tc) → Buf (Elt Ideal) ((c : Thread nD τ).loc b)) (c : Dev nD) :
    (dat5 V c).arrAt 2 cfg5.N
      = maximumf (addf (V c main_v75) (broadcastInDim Cert.ReferenceIdeal.S100000x128 ![0, 1] Cert.ReferenceIdeal.Facts₀.bcast_S1x128_S100000x128_0_1 (V c main_v76)))
          (broadcastInDim Cert.ReferenceIdeal.S100000x128 ![] Cert.ReferenceIdeal.Facts₀.bcast_S_S100000x128 (constant (F := Ideal) Cert.ReferenceIdeal.S_ .f32 0x00000000#32)) :=
  (dat5 V c).arrAt_eq_of_cover 2 (biasRelu5_whole (V c main_v75) (V c main_v76)) (fun t _ => biasRelu5_flushed V c t) biasRelu5_cover

end Cert.KernelIdeal.RegionValue

end
-- ==== Proof.RegionBias7.lean ====
import proofs.«175226_j66958540144840_1_alg».proof.Proof.Gen.KernelIdeal.Frame
import proofs.«175226_j66958540144840_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

/-! Region 7: every row of a [100000, 64] array gets the one row of a [1, 64] array added, 2000 rows at a time over
50 grid points. The array the region leaves is that sum of the two whole input arrays: each point writes the rows
[2000 t, 2000 t + 2000) of it, and the 50 row blocks tile the 100000 rows. -/

/-- The whole-array side: the one bias row added to every row. -/
abbrev biasAdd7_whole (X : FVec Ideal S100000x64 .f32) (B : FVec Ideal S1x64 .f32) : FVec Ideal S100000x64 .f32 :=
  addf X (broadcastInDim Cert.ReferenceIdeal.S100000x64 ![0, 1] Cert.ReferenceIdeal.Facts₀.bcast_S1x64_S100000x64_0_1 B)

/-- The whole-array side at row r, column q: entry (r, q) plus the bias row's entry (0, q). The row broadcast reads
coordinate 0 on the operand's unit axis and the column on the other. -/
theorem biasAdd7_whole_at (X : FVec Ideal S100000x64 .f32) (B : FVec Ideal S1x64 .f32) (r : Fin 100000) (q : Fin 64) :
    biasAdd7_whole X B (ix2 r q) = X (ix2 r q) + B (ix2 (0 : Fin 1) q) := by
  have hB : broadcastInDim Cert.ReferenceIdeal.S100000x64 ![0, 1] Cert.ReferenceIdeal.Facts₀.bcast_S1x64_S100000x64_0_1 B (ix2 r q) = B (ix2 (0 : Fin 1) q) :=
    broadcastInDim_apply _ _ B (ix2 r q) (ix2 (0 : Fin 1) q) fun a => by
      match a with
      | ⟨0, _⟩ => rfl
      | ⟨1, _⟩ => rfl
  show X (ix2 r q) + broadcastInDim Cert.ReferenceIdeal.S100000x64 ![0, 1] Cert.ReferenceIdeal.Facts₀.bcast_S1x64_S100000x64_0_1 B (ix2 r q) = _
  rw [hB]

/-- One block's side at row p, column q of the block: the same-shape casts are the identity and the row broadcast reads
the one row at column q. -/
theorem biasAdd7_pay_at (x0 : FVec Ideal S2000x64 .f32) (x1 : FVec Ideal S1x64 .f32) (p : Fin 2000) (q : Fin 64) :
    k7_pay1 x0 x1 (ix2 p q) = x0 (ix2 p q) + x1 (ix2 (0 : Fin 1) q) := by
  unfold k7_pay1
  rw [shapeCast_self, shapeCast_self, addf_apply, broadcastTo_1b_ab_apply]

theorem biasAdd7_zeroOffsets : (![0, 0] : Fin 2 → Nat) = fun _ => 0 := funext fun a => by fin_cases a <;> rfl

theorem biasAdd7_points : cfg7.N = 50 := by decide

/-- The block indices over the 50 points: the two row-blocked windows sit at block row t, block column 0; the bias
window always at block (0, 0). -/
theorem biasAdd7_idx : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The input window's block at point t, entry (p, q), is the input array's entry (2000 t + p, q). -/
theorem biasAdd7_blk0_at (V : (c : Dev nD) → (b : Ref sig .tc) → Buf (Elt Ideal) ((c : Thread nD τ).loc b)) (c : Dev nD)
    (t : Fin cfg7.N) (p : Fin 2000) (q : Fin 64) (r : Fin 100000) (hr : r.val = 2000 * t.val + p.val) :
    (iblk7 V c 0 t : FVec Ideal S2000x64 .f32) (ix2 p q) = (V c main_v91 : FVec Ideal S100000x64 .f32) (ix2 r q) := by
  obtain ⟨e0, e1, -, -, -, -⟩ := biasAdd7_idx t
  unfold iblk7
  rw [View.read_apply]
  show V c main_v91 _ = V c main_v91 _
  congr 1
  funext a
  apply Fin.ext
  match a with
  | ⟨0, _⟩ => show win7_0.index t (0 : Fin 2) * 2000 + 1 * p.val = r.val; rw [e0, hr]; omega
  | ⟨1, _⟩ => show win7_0.index t (1 : Fin 2) * 64 + 1 * q.val = q.val; rw [e1]; omega

/-- The bias window's block at any point is the whole [1, 64] array. -/
theorem biasAdd7_blk1_at (V : (c : Dev nD) → (b : Ref sig .tc) → Buf (Elt Ideal) ((c : Thread nD τ).loc b)) (c : Dev nD)
    (t : Fin cfg7.N) (q : Fin 64) :
    (iblk7 V c 1 t : FVec Ideal S1x64 .f32) (ix2 (0 : Fin 1) q) = (V c main_v92 : FVec Ideal S1x64 .f32) (ix2 (0 : Fin 1) q) := by
  obtain ⟨-, -, e2, e3, -, -⟩ := biasAdd7_idx t
  unfold iblk7
  rw [View.read_apply]
  show V c main_v92 _ = V c main_v92 _
  congr 1
  funext a
  apply Fin.ext
  match a with
  | ⟨0, _⟩ => show win7_1.index t (0 : Fin 2) * 1 + 1 * 0 = 0; rw [e2]
  | ⟨1, _⟩ => show win7_1.index t (1 : Fin 2) * 64 + 1 * q.val = q.val; rw [e3]; omega

/-- The output window's block at point t sits at rows 2000 t + p, column q of the output array. -/
theorem biasAdd7_emb2 (t : Fin cfg7.N) (p : Fin 2000) (q : Fin 64) (r : Fin 100000) (hr : r.val = 2000 * t.val + p.val) :
    ((cfg7.win 2).blk t).view.emb (ix2 p q) = (ix2 r q : S100000x64.Idx) := by
  obtain ⟨-, -, -, -, e4, e5⟩ := biasAdd7_idx t
  funext a
  apply Fin.ext
  match a with
  | ⟨0, _⟩ => show win7_2.index t (0 : Fin 2) * 2000 + 1 * p.val = r.val; rw [e4, hr]; omega
  | ⟨1, _⟩ => show win7_2.index t (1 : Fin 2) * 64 + 1 * q.val = q.val; rw [e5]; omega

/-- At an entry of the block: what the body computes from the two input blocks at point t is the whole-array side at
the array index under that entry. -/
theorem biasAdd7_point (V : (c : Dev nD) → (b : Ref sig .tc) → Buf (Elt Ideal) ((c : Thread nD τ).loc b)) (c : Dev nD)
    (t : Fin cfg7.N) (j : S2000x64.Idx) :
    k7_pay1 (iblk7 V c 0 t) (iblk7 V c 1 t) j
      = biasAdd7_whole (V c main_v91) (V c main_v92) (((cfg7.win 2).blk t).view.emb j) := by
  obtain ⟨p, q, rfl⟩ : ∃ (p : Fin 2000) (q : Fin 64), j = ix2 p q := ⟨j 0, j 1, eq_ix2 j⟩
  have hr : 2000 * t.val + p.val < 100000 := by
    have ht : t.val < cfg7.N := t.isLt
    have hN : cfg7.N = 50 := biasAdd7_points
    omega
  rw [biasAdd7_emb2 t p q ⟨2000 * t.val + p.val, hr⟩ rfl, biasAdd7_whole_at,
    ← biasAdd7_blk0_at V c t p q ⟨2000 * t.val + p.val, hr⟩ rfl, ← biasAdd7_blk1_at V c t q]
  exact biasAdd7_pay_at _ _ p q

/-- What point t writes back is block t of the whole-array side of the two input arrays as the region finds them. -/
theorem biasAdd7_flushed (V : (c : Dev nD) → (b : Ref sig .tc) → Buf (Elt Ideal) ((c : Thread nD τ).loc b)) (c : Dev nD)
    (t : Fin cfg7.N) :
    (dat7 V c).flushed 2 t
      = ((cfg7.win 2).blk t).view.read (Elt Ideal) (biasAdd7_whole (V c main_v91) (V c main_v92)) := by
  show (cfg7.win 2).cut (grid7.coords t) ((dat7 V c).after 2 t) = _
  rw [after7_2]
  unfold out7_2
  rw [View.canon_unit_zero biasAdd7_zeroOffsets]
  simp only [View.ld_unit_zero (S := S2000x64) biasAdd7_zeroOffsets, View.ld_unit_zero (S := S1x64) biasAdd7_zeroOffsets]
  funext j
  exact biasAdd7_point V c t j

/-- An index of the output array is in point t's block iff each coordinate is in the block's range on its axis. -/
theorem biasAdd7_mem_blk (t : Fin cfg7.N) (i : S100000x64.Idx) :
    i ∈ ((cfg7.win 2).blk t).view.set ↔ ∀ a : Fin 2, win7_2.index t a * S2000x64.size a ≤ (i a).val ∧ (i a).val < win7_2.index t a * S2000x64.size a + S2000x64.size a := by
  show i ∈ ((View.whole main_v93).slice (win7_2.rect t)).set ↔ _
  rw [View.set_slice_whole, Rect.mem_set_unit]
  exact Iff.rfl

/-- The 50 row blocks cover the 100000 rows: row r is in the block of point r / 2000. -/
theorem biasAdd7_cover (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hlt : (i 0).val / 2000 < cfg7.N := by rw [biasAdd7_points]; omega
  obtain ⟨-, -, -, -, e4, e5⟩ := biasAdd7_idx ⟨(i 0).val / 2000, hlt⟩
  refine ⟨⟨(i 0).val / 2000, hlt⟩, flush7_2 _, ?_⟩
  rw [biasAdd7_mem_blk]
  intro a
  match a with
  | ⟨0, _⟩ =>
    show win7_2.index ⟨(i 0).val / 2000, hlt⟩ (0 : Fin 2) * 2000 ≤ (i 0).val ∧ (i 0).val < win7_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win7_2.index ⟨(i 0).val / 2000, hlt⟩ (1 : Fin 2) * 64 ≤ (i 1).val ∧ (i 1).val < win7_2.index ⟨(i 0).val / 2000, hlt⟩ (1 : Fin 2) * 64 + 64
    rw [e5]
    omega

/-- The array region 7 leaves: the bias row added to every row of the input array. -/
theorem arr7 (V : (c : Dev nD) → (b : Ref sig .tc) → Buf (Elt Ideal) ((c : Thread nD τ).loc b)) (c : Dev nD) :
    (dat7 V c).arrAt 2 cfg7.N
      = (addf (V c main_v91) (broadcastInDim Cert.ReferenceIdeal.S100000x64 ![0, 1] Cert.ReferenceIdeal.Facts₀.bcast_S1x64_S100000x64_0_1 (V c main_v92))
          : FVec Ideal Cert.ReferenceIdeal.S100000x64 .f32) :=
  (dat7 V c).arrAt_eq_of_cover 2 (biasAdd7_whole (V c main_v91) (V c main_v92)) (fun t _ => biasAdd7_flushed V c t) biasAdd7_cover

end Cert.KernelIdeal.RegionValue

end
-- ==== Proof.RowOfVector.lean ====
import proofs.«175226_j66958540144840_1_alg».proof.Proof.Gen.KernelIdeal
import proofs.«175226_j66958540144840_1_alg».proof.Proof.Gen.ReferenceIdeal
import Idealize.ShloMosaic.Lib.Pipeline.Value
import Idealize.ShloMosaic.Lib.ValueIdx
import Idealize.ShloMosaic.Lib.ValueLayout

noncomputable section

namespace Cert.KernelIdeal.RegionValue

open Idealize.ShloMosaic Idealize.ShloMosaic.ValueIdx Cert.KernelIdeal

/-! A vector of length f laid out as the one row of a [1, f] array, two ways: by a reshape (row-major order kept), and
by a broadcast that sends the vector's axis to axis 1 of the result. Both put entry j of the vector at (0, j). -/

/-- Length 128: the reshape to [1, 128] is the broadcast along axis 1. At (u, j), the reshape reads the entry at the
same row-major position, which is j since the row coordinate u is 0; the broadcast reads the entry at the coordinate
on the axis it was sent to, also j. -/
theorem reshape_eq_bcast128 (b : FVec Ideal S128 .f32) :
    shapeCast S1x128 b Cert.KernelIdeal.Facts₀.shapeCasts_S128_S1x128
      = broadcastInDim Cert.ReferenceIdeal.S1x128 ![1] Cert.ReferenceIdeal.Facts₀.bcast_S128_S1x128_1 b := by
  funext j
  obtain ⟨u, i, rfl⟩ : ∃ (u : Fin 1) (i : Fin 128), j = ix2 u i := ⟨j 0, j 1, eq_ix2 j⟩
  rw [shapeCast_a_1a_apply]
  exact (broadcastInDim_apply _ _ b (ix2 u i) (ix1 i) fun a => by
    match a with
    | ⟨0, _⟩ => rfl).symm

/-- Length 64: the same, for the [1, 64] row. -/
theorem reshape_eq_bcast64 (b : FVec Ideal S64 .f32) :
    shapeCast S1x64 b Cert.KernelIdeal.Facts₀.shapeCasts_S64_S1x64
      = broadcastInDim Cert.ReferenceIdeal.S1x64 ![1] Cert.ReferenceIdeal.Facts₀.bcast_S64_S1x64_1 b := by
  funext j
  obtain ⟨u, i, rfl⟩ : ∃ (u : Fin 1) (i : Fin 64), j = ix2 u i := ⟨j 0, j 1, eq_ix2 j⟩
  rw [shapeCast_a_1a_apply]
  exact (broadcastInDim_apply _ _ b (ix2 u i) (ix1 i) fun a => by
    match a with
    | ⟨0, _⟩ => rfl).symm

end Cert.KernelIdeal.RegionValue

end
-- ==== Proof.Chain.lean ====
/-
  The kernel program's result as a function of its arguments.  Walking the sixteen boundaries in order: the first
  kernel leaves the dense product of the node features and the first weight matrix in its output array (the fifty
  row blocks tile the array; at the extended reals the tiled product is the host's product); the host stretch after it
  leaves the weighted gather–scatter-add of that array and the bias as one row; the second kernel leaves the
  aggregate plus the bias row broadcast over the rows, with the maximum with zero; and so on through the four layers,
  each kernel reading its inputs as the boundary before it holds them.  At the last boundary the result buffer holds
  `gcn` of the ten arguments as launched — the value the reference's result term unfolds to.
-/
import proofs.«175226_j66958540144840_1_alg».proof.Proof.HostStretch
import proofs.«175226_j66958540144840_1_alg».proof.Proof.RegionMatmul0
import proofs.«175226_j66958540144840_1_alg».proof.Proof.RegionMatmul2
import proofs.«175226_j66958540144840_1_alg».proof.Proof.RegionMatmul4
import proofs.«175226_j66958540144840_1_alg».proof.Proof.RegionMatmul6
import proofs.«175226_j66958540144840_1_alg».proof.Proof.RegionBias1
import proofs.«175226_j66958540144840_1_alg».proof.Proof.RegionBias3
import proofs.«175226_j66958540144840_1_alg».proof.Proof.RegionBias5
import proofs.«175226_j66958540144840_1_alg».proof.Proof.RegionBias7
import proofs.«175226_j66958540144840_1_alg».proof.Proof.RowOfVector

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The node features after the first layer. -/
def act1 (c : Dev nD) : FVec Ideal Cert.ReferenceIdeal.S100000x128 .f32 :=
  Cert.ReferenceIdeal.Spec.biasRelu128 (Cert.ReferenceIdeal.Spec.aggregate128 (m ((c : Thread nD τ).loc main_arg1)) (Cert.ReferenceIdeal.Spec.lin128 (m ((c : Thread nD τ).loc main_arg0)) (m ((c : Thread nD τ).loc main_arg2)))) (m ((c : Thread nD τ).loc main_arg3))
/-- The node features after the second layer. -/
def act2 (c : Dev nD) : FVec Ideal Cert.ReferenceIdeal.S100000x128 .f32 :=
  Cert.ReferenceIdeal.Spec.biasRelu128 (Cert.ReferenceIdeal.Spec.aggregate128 (m ((c : Thread nD τ).loc main_arg1)) (Cert.ReferenceIdeal.Spec.lin128 (act1 m c) (m ((c : Thread nD τ).loc main_arg4)))) (m ((c : Thread nD τ).loc main_arg5))
/-- The node features after the third layer. -/
def act3 (c : Dev nD) : FVec Ideal Cert.ReferenceIdeal.S100000x128 .f32 :=
  Cert.ReferenceIdeal.Spec.biasRelu128 (Cert.ReferenceIdeal.Spec.aggregate128 (m ((c : Thread nD τ).loc main_arg1)) (Cert.ReferenceIdeal.Spec.lin128 (act2 m c) (m ((c : Thread nD τ).loc main_arg6)))) (m ((c : Thread nD τ).loc main_arg7))

/-- Kernel 0's output array: the dense product of the node features and the first weight matrix. -/
theorem prod1 (c : Dev nD) :
    W4 m ρ c (Proc.devRef .tc main_v30) = Cert.ReferenceIdeal.Spec.lin128 (F := Ideal) (m ((c : Thread nD τ).loc main_arg0)) (m ((c : Thread nD τ).loc main_arg2)) := by
  have ex : V3 m ρ c main_arg0 = _ := Keep.arg0_at3 m ρ c
  have ew : V3 m ρ c main_arg2 = _ := Keep.arg2_at3 m ρ c
  refine (W4_arr m ρ c 2).trans ?_
  rw [RegionValue.arr0 (V3 m ρ) c, ex, ew]
  rfl

/-- Kernel 1's output array: the first layer's features. -/
theorem feat1 (c : Dev nD) : W6 m ρ c (Proc.devRef .tc main_v45) = act1 m c := by
  have ea : V5 m ρ c main_v43 = _ := (HostStretch.agg1 m ρ c).trans (by rw [prod1 m ρ c])
  have eb : V5 m ρ c main_v44 = _ := (HostStretch.row1 m ρ c).trans (RegionValue.reshape_eq_bcast128 _)
  refine (W6_arr m ρ c 2).trans ?_
  rw [RegionValue.arr1 (V5 m ρ) c, ea, eb]
  rfl

/-- Kernel 2's output array: the second layer's dense product. -/
theorem prod2 (c : Dev nD) :
    W7 m ρ c (Proc.devRef .tc main_v46) = Cert.ReferenceIdeal.Spec.lin128 (F := Ideal) (act1 m c) (m ((c : Thread nD τ).loc main_arg4)) := by
  have ex : V6 m ρ c main_v45 = _ := feat1 m ρ c
  have ew : V6 m ρ c main_arg4 = _ := Keep.arg4_at6 m ρ c
  refine (W7_arr m ρ c 2).trans ?_
  rw [RegionValue.arr2 (V6 m ρ) c, ex, ew]
  rfl

/-- Kernel 3's output array: the second layer's features. -/
theorem feat2 (c : Dev nD) : W9 m ρ c (Proc.devRef .tc main_v61) = act2 m c := by
  have ea : V8 m ρ c main_v59 = _ := (HostStretch.agg3 m ρ c).trans (by rw [prod2 m ρ c])
  have eb : V8 m ρ c main_v60 = _ := (HostStretch.row3 m ρ c).trans (RegionValue.reshape_eq_bcast128 _)
  refine (W9_arr m ρ c 2).trans ?_
  rw [RegionValue.arr3 (V8 m ρ) c, ea, eb]
  rfl

/-- Kernel 4's output array: the third layer's dense product. -/
theorem prod3 (c : Dev nD) :
    W10 m ρ c (Proc.devRef .tc main_v62) = Cert.ReferenceIdeal.Spec.lin128 (F := Ideal) (act2 m c) (m ((c : Thread nD τ).loc main_arg6)) := by
  have ex : V9 m ρ c main_v61 = _ := feat2 m ρ c
  have ew : V9 m ρ c main_arg6 = _ := Keep.arg6_at9 m ρ c
  refine (W10_arr m ρ c 2).trans ?_
  rw [RegionValue.arr4 (V9 m ρ) c, ex, ew]
  rfl

/-- Kernel 5's output array: the third layer's features. -/
theorem feat3 (c : Dev nD) : W12 m ρ c (Proc.devRef .tc main_v77) = act3 m c := by
  have ea : V11 m ρ c main_v75 = _ := (HostStretch.agg5 m ρ c).trans (by rw [prod3 m ρ c])
  have eb : V11 m ρ c main_v76 = _ := (HostStretch.row5 m ρ c).trans (RegionValue.reshape_eq_bcast128 _)
  refine (W12_arr m ρ c 2).trans ?_
  rw [RegionValue.arr5 (V11 m ρ) c, ea, eb]
  rfl

/-- Kernel 6's output array: the last layer's dense product, 128 features to 64. -/
theorem prod4 (c : Dev nD) :
    W13 m ρ c (Proc.devRef .tc main_v78) = Cert.ReferenceIdeal.Spec.lin64 (F := Ideal) (act3 m c) (m ((c : Thread nD τ).loc main_arg8)) := by
  have ex : V12 m ρ c main_v77 = _ := feat3 m ρ c
  have ew : V12 m ρ c main_arg8 = _ := Keep.arg8_at12 m ρ c
  refine (W13_arr m ρ c 2).trans ?_
  rw [RegionValue.arr6 (V12 m ρ) c, ex, ew]
  rfl

/-- Kernel 7's output array — the program's result — is the four-layer function of the arguments as launched. -/
theorem result (c : Dev nD) : W15 m ρ c (Proc.devRef .tc main_v93) = Cert.ReferenceIdeal.Spec.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  have ea : V14 m ρ c main_v91 = _ := (HostStretch.agg7 m ρ c).trans (by rw [prod4 m ρ c])
  have eb : V14 m ρ c main_v92 = _ := (HostStretch.row7 m ρ c).trans (RegionValue.reshape_eq_bcast64 _)
  refine (W15_arr m ρ c 2).trans ?_
  rw [RegionValue.arr7 (V14 m ρ) c, ea, eb]
  rfl

end Cert.KernelIdeal.Chain

end
-- ==== Proof.lean ====
/-
  The certificate: a four-layer graph convolution computed by eight tiled kernels among host operations equals its
  plain reference over the extended reals.

  Both programs run the same host operations on the edge list (sources and destinations with self-loops, degrees, edge
  weights) and, per layer, the same weighted gather–scatter-add; they differ in the dense product `h · W`, which the
  kernel program computes in fifty row blocks from operands narrowed to bf16 (the narrowing is the identity on the
  extended reals, and a blocked product into a zero accumulator is the plain sum over the contracted coordinate, the
  host's product), and in the bias step, which it computes in fifty row blocks from the bias reshaped to one row (the
  reference broadcasts the vector).  Hence the kernel program's result buffer, computed boundary by boundary
  (Chain.lean), and the reference's composed result term (RefSpec.lean) are one function `gcn` of the arguments
  (Spec.lean).  No law of arithmetic beyond the sum form of the product is used, so the precondition is never opened.

  The three frames are the generated ones (the reference's is its run with the result dropped); the idealization
  rewrote no operation, so `preserves` is trivial.
-/
import proofs.«175226_j66958540144840_1_alg».proof.Defs
import proofs.«175226_j66958540144840_1_alg».proof.Proof.Gen.Kernel
import proofs.«175226_j66958540144840_1_alg».proof.Proof.Gen.Kernel.Skeleton
import proofs.«175226_j66958540144840_1_alg».proof.Proof.Gen.Kernel.Launch
import proofs.«175226_j66958540144840_1_alg».proof.Proof.Gen.Kernel.Points
import proofs.«175226_j66958540144840_1_alg».proof.Proof.Gen.Kernel.Frame
import proofs.«175226_j66958540144840_1_alg».proof.Proof.Gen.KernelIdeal
import proofs.«175226_j66958540144840_1_alg».proof.Proof.Gen.KernelIdeal.Skeleton
import proofs.«175226_j66958540144840_1_alg».proof.Proof.Gen.KernelIdeal.Launch
import proofs.«175226_j66958540144840_1_alg».proof.Proof.Gen.KernelIdeal.Points
import proofs.«175226_j66958540144840_1_alg».proof.Proof.Gen.KernelIdeal.Frame
import proofs.«175226_j66958540144840_1_alg».proof.Proof.Gen.ReferenceIdeal
import proofs.«175226_j66958540144840_1_alg».proof.Proof.Gen.Pre_finite_inputs
import proofs.«175226_j66958540144840_1_alg».proof.Proof.RefRunPatched
import proofs.«175226_j66958540144840_1_alg».proof.Proof.RefSpec
import proofs.«175226_j66958540144840_1_alg».proof.Proof.KernelRun
import proofs.«175226_j66958540144840_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with the arguments unchanged (and its result at the composed term, dropped here). -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the ten arguments both programs end, the arguments unchanged, with the result buffers
    at one value: `gcn` of the arguments. -/
theorem algebraic : Cert.algebraic_KernelIdeal_ReferenceIdeal := by
  intro m ρ m' ρ' _ hagree
  refine ⟨fun c => Cert.ReferenceIdeal.Spec.gcn (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (Cert.KernelIdeal.Chain.result m ρ c), (h c).2⟩)
      (Cert.KernelIdeal.ValueRun.run (F := Ideal) m ρ)
  · refine (θ_run Cert.ReferenceIdeal.defs _ _).mono (fun _ h c => ⟨(h c).1.trans ?_, (h c).2⟩) (Cert.ReferenceIdeal.ValueP.run (F := Ideal) m' ρ')
    rw [Cert.ReferenceIdeal.RefValue.res_eq_gcn m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
